-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x16 : Shape := ⟨2, ![10000, 16]⟩
abbrev S2048x128 : Shape := ⟨2, ![2048, 128]⟩
abbrev S2000x2048 : Shape := ⟨2, ![2000, 2048]⟩
abbrev S2000x16 : Shape := ⟨2, ![2000, 16]⟩
abbrev S10240x16 : Shape := ⟨2, ![10240, 16]⟩
abbrev S2048x64 : Shape := ⟨2, ![2048, 64]⟩
abbrev S2048x16 : Shape := ⟨2, ![2048, 16]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S10000x16, .f32⟩
  | .local _ .vmem, ⟨0, _⟩ => ⟨S2048x128, .f32⟩
  | .local _ .vmem, ⟨1, _⟩ => ⟨S2048x128, .f32⟩
  | .local _ .vmem, ⟨2, _⟩ => ⟨S2000x2048, .f32⟩
  | .local _ .vmem, ⟨3, _⟩ => ⟨S2000x2048, .f32⟩
  | .local _ .vmem, ⟨4, _⟩ => ⟨S128x64, .f32⟩
  | .local _ .vmem, ⟨5, _⟩ => ⟨S1x64, .f32⟩
  | .local _ .vmem, ⟨6, _⟩ => ⟨S64x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S10240x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![5, 5], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c2048_i32_19 : BitVec 32 := 2048#32
  let v33 : BitVec 32 := Scalar.muli arg1 c2048_i32_19
  let v34 : Index := Scalar.indexCast v33
  let c0_20 : Index := 0#32
  ![v34.toNat, 0]
def k0_cond2 (i : grid0.Coords) : BitVec 1 :=
  let arg1 : BitVec 32 := BitVec.ofNat 32 (i 1).val
  let c4_i32 : BitVec 32 := 4#32
  let v4 : BitVec 1 := Scalar.cmpi .eq arg1 c4_i32
  let v5 : BitVec 32 := Scalar.extui v4
  let c0_i32_2 : BitVec 32 := 0#32
  let v6 : BitVec 1 := Scalar.cmpi .ne v5 c0_i32_2
  v6

def k0_off2 (i : grid0.Coords) : Fin 2 → Nat :=
  let arg1 : BitVec 32 := BitVec.ofNat 32 (i 1).val
  let c2048_i32_10 : BitVec 32 := 2048#32
  let v24 : BitVec 32 := Scalar.muli arg1 c2048_i32_10
  let v25 : Index := Scalar.indexCast v24
  let c0_11 : Index := 0#32
  ![v25.toNat, 0]
def k0_cond4 (i : grid0.Coords) : BitVec 1 :=
  let arg1 : BitVec 32 := BitVec.ofNat 32 (i 1).val
  let c0_i32_5 : BitVec 32 := 0#32
  let v10 : BitVec 1 := Scalar.cmpi .sgt arg1 c0_i32_5
  let c4_i32_6 : BitVec 32 := 4#32
  let v11 : BitVec 1 := Scalar.cmpi .slt arg1 c4_i32_6
  let v12 : BitVec 1 := Scalar.andi v10 v11
  let v13 : BitVec 32 := Scalar.extui v12
  let c0_i32_7 : BitVec 32 := 0#32
  let v14 : BitVec 1 := Scalar.cmpi .ne v13 c0_i32_7
  v14

def k0_off3 (i : grid0.Coords) : Fin 2 → Nat :=
  let arg1 : BitVec 32 := BitVec.ofNat 32 (i 1).val
  let c2048_i32 : BitVec 32 := 2048#32
  let v17 : BitVec 32 := Scalar.muli arg1 c2048_i32
  let v18 : Index := Scalar.indexCast v17
  let c0_10 : Index := 0#32
  ![v18.toNat, 0]
def k0_cond3 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S64_S1x64 : S64.ShapeCasts S1x64
  shapeCasts_S16_S1x16 : S16.ShapeCasts S1x16
  inb_S2048x128_S2048x128_0_0 : ∀ a, (![0, 0] : Fin 2 → Nat) a + S2048x128.size a ≤ S2048x128.size a
  h_S2048x128 : 0 < S2048x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x16_S64x16_0_0 : ∀ a, (![0, 0] : Fin 2 → Nat) a + S64x16.size a ≤ S64x16.size a
  h_S64x16 : 0 < S64x16.numel
  iota_S2048x16_d0_w32 : S2048x16.Iotas .tc 32 [0]
  h_S2048x16 : 0 < S2048x16.numel
  shapeCasts_S2048x16_S2048x16 : S2048x16.ShapeCasts S2048x16
  inb_S2000x2048_S2000x2048_0_0 : ∀ a, (![0, 0] : Fin 2 → Nat) a + S2000x2048.size a ≤ S2000x2048.size a
  h_S2000x2048 : 0 < S2000x2048.numel
  iota_S2000x2048_d1_w32 : S2000x2048.Iotas .tc 32 [1]
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S10240x16_S2048x16_0_0 : ∀ a, (![0, 0] : Fin 2 → Nat) a + S2048x16.size a ≤ S10240x16.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  dot_S2048x128_S128x64_S2048x64_1_0_0_1_n_n_wf : DotDims.WF S2048x128 S128x64 S2048x64 [1] [0] [0] [1] [] []
  dot_S2048x64_S64x16_S2048x16_1_0_0_1_n_n_wf : DotDims.WF S2048x64 S64x16 S2048x16 [1] [0] [0] [1] [] []
  dot_S2000x2048_S2048x16_S2000x16_1_0_0_1_n_n_wf : DotDims.WF S2000x2048 S2048x16 S2000x16 [1] [0] [0] [1] [] []
  hrank0 : 0 < grid0.rank
  k0_off1_inb : ∀ i : grid0.Coords, ∀ (k0_h1 : k0_cond1 i = 1#1), ∀ a, (k0_off1 i) a + S2048x16.size a ≤ S10240x16.size a
  k0_off2_inb : ∀ i : grid0.Coords, ∀ (k0_h2 : k0_cond2 i = 1#1), ∀ a, (k0_off2 i) a + S2048x16.size a ≤ S10240x16.size a
  k0_off3_inb : ∀ i : grid0.Coords, ∀ (k0_h4 : k0_cond4 i = 1#1), ∀ a, (k0_off3 i) a + S2048x16.size a ≤ S10240x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x128.size a < S10000x128.size a
  hwx0_0 : ∀ i : grid0.Coords, EltTy.bits .f32 = 32 ∨ (Rect.unit (s := S10000x128) (fun a => cc0_transform_0 i a * S2048x128.size a) (fun a => (Pipeline.Clip.of (cc0_transform_0 i a) (S2048x128.size a) (S10000x128.size a)).extent (S2048x128.size a)) fun a => Pipeline.Clip.inb (Pipeline.Clip.ok_of (hstart0_0 i a))).WholeWords (EltTy.packing .f32)
  hwxs0_0 : ∀ i : grid0.Coords, EltTy.bits .f32 = 32 ∨ (Rect.unit (s := S2048x128) (fun _ => 0) (fun a => (Pipeline.Clip.of (cc0_transform_0 i a) (S2048x128.size a) (S10000x128.size a)).extent (S2048x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2000x2048.size a < S10000x10000.size a
  hwx0_1 : ∀ i : grid0.Coords, EltTy.bits .f32 = 32 ∨ (Rect.unit (s := S10000x10000) (fun a => cc0_transform_1 i a * S2000x2048.size a) (fun a => (Pipeline.Clip.of (cc0_transform_1 i a) (S2000x2048.size a) (S10000x10000.size a)).extent (S2000x2048.size a)) fun a => Pipeline.Clip.inb (Pipeline.Clip.ok_of (hstart0_1 i a))).WholeWords (EltTy.packing .f32)
  hwxs0_1 : ∀ i : grid0.Coords, EltTy.bits .f32 = 32 ∨ (Rect.unit (s := S2000x2048) (fun _ => 0) (fun a => (Pipeline.Clip.of (cc0_transform_1 i a) (S2000x2048.size a) (S10000x10000.size a)).extent (S2000x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x16.size a ≤ S10000x16.size a
  hwx0_6 : ∀ i : grid0.Coords, EltTy.bits .f32 = 32 ∨ (Rect.block (s := S10000x16) S2000x16.size (cc0_transform_6 i) (hinb0_6 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S2000x2048_S2048x16_S2000x16_1_0_0_1_n_n : DotDims S2000x2048 S2048x16 S2000x16 where
  lhsContracting := [1]
  rhsContracting := [0]
  lhsNonContracting := [0]
  rhsNonContracting := [1]
  lhsBatch := []
  rhsBatch := []
  wf := dot_S2000x2048_S2048x16_S2000x16_1_0_0_1_n_n_wf

abbrev win0_0 : Pipeline.Window sig grid0 :=
  Pipeline.Window.ofSpecClip (Memref.whole main_arg0) S2048x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S2000x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) && !(k0_cond3 i == 1#1) && !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S1x64, .f32⟩
  | .hbm, ⟨8, _⟩ => ⟨S10000x64, .f32⟩
  | .hbm, ⟨9, _⟩ => ⟨S10000x64, .f32⟩
  | .hbm, ⟨10, _⟩ => ⟨S_, .f32⟩
  | .hbm, ⟨11, _⟩ => ⟨S10000x64, .f32⟩
  | .hbm, ⟨12, _⟩ => ⟨S10000x64, .f32⟩
  | .hbm, ⟨13, _⟩ => ⟨S10000x16, .f32⟩
  | .hbm, ⟨14, _⟩ => ⟨S10000x16, .f32⟩
  | .hbm, ⟨15, _⟩ => ⟨S1x16, .f32⟩
  | .hbm, ⟨16, _⟩ => ⟨S10000x16, .f32⟩
  | .hbm, ⟨17, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.WordBodyDefs.lean ====
/-
  (This module is about the program as printed, read at the word level; its twin states the same of the
  idealized program. The two programs have the same text, so the statements and proofs are the same.)

  What the kernel's body does at one grid point, by the branches it takes.

  The body has four conditionals on the grid coordinates (strip i, chunk k): "i = 0" (compute chunk k of
  the projection and store it into rows 2048 k … 2048 k + 2047 of the scratch), "k = 4" (add the masked last
  chunk's product to the output block), "k = 0" (start the output block: first chunk's product plus the bias)
  and "0 < k < 4" (add a middle chunk's product). On the 5 × 5 grid exactly six patterns of the four occur:
  i = 0 or not, with k = 0, 0 < k < 4 or k = 4. This module names the pieces the six runs are stated over:
  the rows of the scratch each branch touches, what the scratch holds after the projection store (the chunk
  on its rows, the old contents elsewhere), the read-back of one store through a rectangle, and the decided
  list of patterns with the point's strip and chunk.
-/
import proofs.«122200_g63917703299193_cont_sun_m_350_28_alg».proof.Proof.Gen.Kernel.Frame
import proofs.«122200_g63917703299193_cont_sun_m_350_28_alg».proof.Proof.Gen.Kernel.Skeleton
import Idealize.ShloMosaic.Lib.Pipeline.Value
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets, however spelt. -/
theorem hz2 : (![0, 0] : Fin 2 → Nat) = fun _ => 0 := funext fun a => by fin_cases a <;> rfl

/-- One store through a rectangle, read back: the payload on the rectangle, the old contents off it. -/
theorem read_writes_one {κ : Kind} {sp : Space} {s : Shape} {e : EltTy} (v : View sig κ sp s e) (f : v.ty.Contents (Elt F))
    (r : Rect s) (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y _ (fun p hp => by
      rw [List.mem_singleton] at hp; subst hp; exact hy), Rect.overlay_of_not_mem _ _ _ hy]

/-- A load through the very rectangle the one store went through reads the payload, -/
theorem readCov_self {κ : Kind} {sp : Space} {s : Shape} {e : EltTy} (v : View sig κ sp s e) (r : Rect s)
    (w : r.shape.Idx → Elt F e) : v.readCov [⟨r, w⟩] r.toLoadRect = w := by
  rw [View.readCov_eq_canon v _ _ (fun j => ⟨_, List.mem_singleton_self _, r.idx_mem j⟩)]
  funext j
  exact View.canon_cons_emb r w [] j

/-- and so does reading the overlaid contents through it. -/
theorem ld_overlay_self {s : Shape} {e : EltTy} (r : Rect s) (X : s.Idx → Elt F e) (w : r.shape.Idx → Elt F e) :
    View.ld (r.overlay X w) r = w := by
  funext j; exact r.overlay_emb X w j

/-- The rows of the scratch the projection store at point i writes: 2048 k … 2048 k + 2047. -/
abbrev scrRect (i : grid0.Coords) (h1 : k0_cond1 i = 1#1) : Rect S10240x16 :=
  Rect.unit (s := S10240x16) (k0_off1 i) S2048x16.size (k0_off1_inb i h1)

/-- The scratch after that store: the projection chunk on those rows, the old contents elsewhere. -/
def scrAfter (i : grid0.Coords) (h1 : k0_cond1 i = 1#1) (x0 : Vec F S2048x128 .f32) (x2 : Vec F S128x64 .f32)
    (x3 : Vec F S1x64 .f32) (x4 : Vec F S64x16 .f32) (x9 : Vec F S10240x16 .f32) : Vec F S10240x16 .f32 :=
  (scrRect i h1).overlay x9 (k0_pay1 i x0 x2 x3 x4)

/-- The first 2048 rows of the scratch, as the first-chunk product loads them. -/
abbrev rect0 : Rect S10240x16 := Rect.unit (s := S10240x16) ![0, 0] S2048x16.size inb_S10240x16_S2048x16_0_0

/-- The rows of the scratch the last chunk's product loads (k = 4): 2048 k … -/
abbrev rect2 (i : grid0.Coords) (h2 : k0_cond2 i = 1#1) : Rect S10240x16 :=
  Rect.unit (s := S10240x16) (k0_off2 i) S2048x16.size (k0_off2_inb i h2)

/-- The rows of the scratch a middle chunk's product loads (0 < k < 4): 2048 k … -/
abbrev rect3 (i : grid0.Coords) (h4 : k0_cond4 i = 1#1) : Rect S10240x16 :=
  Rect.unit (s := S10240x16) (k0_off3 i) S2048x16.size (k0_off3_inb i h4)

/-- The strip and the chunk of grid point t. -/
theorem coords_at : ∀ t : Fin cfg0.N, (grid0.coords t 0).val = t.val / 5 ∧ (grid0.coords t 1).val = t.val % 5 :=
  (by decide +kernel : ∀ t : Fin grid0.N, (grid0.coords t 0).val = t.val / 5 ∧ (grid0.coords t 1).val = t.val % 5)

/-- At every grid point exactly one of six patterns of the four conditions holds, and it says where the point
    is: the first strip or a later one, the first chunk, a middle one or the last. -/
theorem cases_at : ∀ t : Fin cfg0.N,
      (k0_cond1 (grid0.coords t) = 1#1 ∧ ¬ k0_cond2 (grid0.coords t) = 1#1 ∧ k0_cond3 (grid0.coords t) = 1#1 ∧ ¬ k0_cond4 (grid0.coords t) = 1#1 ∧ t.val / 5 = 0 ∧ t.val % 5 = 0)
    ∨ (k0_cond1 (grid0.coords t) = 1#1 ∧ ¬ k0_cond2 (grid0.coords t) = 1#1 ∧ ¬ k0_cond3 (grid0.coords t) = 1#1 ∧ k0_cond4 (grid0.coords t) = 1#1 ∧ t.val / 5 = 0 ∧ 0 < t.val % 5 ∧ t.val % 5 < 4)
    ∨ (k0_cond1 (grid0.coords t) = 1#1 ∧ k0_cond2 (grid0.coords t) = 1#1 ∧ ¬ k0_cond3 (grid0.coords t) = 1#1 ∧ ¬ k0_cond4 (grid0.coords t) = 1#1 ∧ t.val / 5 = 0 ∧ t.val % 5 = 4)
    ∨ (¬ k0_cond1 (grid0.coords t) = 1#1 ∧ ¬ k0_cond2 (grid0.coords t) = 1#1 ∧ k0_cond3 (grid0.coords t) = 1#1 ∧ ¬ k0_cond4 (grid0.coords t) = 1#1 ∧ 0 < t.val / 5 ∧ t.val % 5 = 0)
    ∨ (¬ k0_cond1 (grid0.coords t) = 1#1 ∧ ¬ k0_cond2 (grid0.coords t) = 1#1 ∧ ¬ k0_cond3 (grid0.coords t) = 1#1 ∧ k0_cond4 (grid0.coords t) = 1#1 ∧ 0 < t.val / 5 ∧ 0 < t.val % 5 ∧ t.val % 5 < 4)
    ∨ (¬ k0_cond1 (grid0.coords t) = 1#1 ∧ k0_cond2 (grid0.coords t) = 1#1 ∧ ¬ k0_cond3 (grid0.coords t) = 1#1 ∧ ¬ k0_cond4 (grid0.coords t) = 1#1 ∧ 0 < t.val / 5 ∧ t.val % 5 = 4) :=
  (by decide +kernel : ∀ t : Fin grid0.N,
      (k0_cond1 (grid0.coords t) = 1#1 ∧ ¬ k0_cond2 (grid0.coords t) = 1#1 ∧ k0_cond3 (grid0.coords t) = 1#1 ∧ ¬ k0_cond4 (grid0.coords t) = 1#1 ∧ t.val / 5 = 0 ∧ t.val % 5 = 0)
    ∨ (k0_cond1 (grid0.coords t) = 1#1 ∧ ¬ k0_cond2 (grid0.coords t) = 1#1 ∧ ¬ k0_cond3 (grid0.coords t) = 1#1 ∧ k0_cond4 (grid0.coords t) = 1#1 ∧ t.val / 5 = 0 ∧ 0 < t.val % 5 ∧ t.val % 5 < 4)
    ∨ (k0_cond1 (grid0.coords t) = 1#1 ∧ k0_cond2 (grid0.coords t) = 1#1 ∧ ¬ k0_cond3 (grid0.coords t) = 1#1 ∧ ¬ k0_cond4 (grid0.coords t) = 1#1 ∧ t.val / 5 = 0 ∧ t.val % 5 = 4)
    ∨ (¬ k0_cond1 (grid0.coords t) = 1#1 ∧ ¬ k0_cond2 (grid0.coords t) = 1#1 ∧ k0_cond3 (grid0.coords t) = 1#1 ∧ ¬ k0_cond4 (grid0.coords t) = 1#1 ∧ 0 < t.val / 5 ∧ t.val % 5 = 0)
    ∨ (¬ k0_cond1 (grid0.coords t) = 1#1 ∧ ¬ k0_cond2 (grid0.coords t) = 1#1 ∧ ¬ k0_cond3 (grid0.coords t) = 1#1 ∧ k0_cond4 (grid0.coords t) = 1#1 ∧ 0 < t.val / 5 ∧ 0 < t.val % 5 ∧ t.val % 5 < 4)
    ∨ (¬ k0_cond1 (grid0.coords t) = 1#1 ∧ k0_cond2 (grid0.coords t) = 1#1 ∧ ¬ k0_cond3 (grid0.coords t) = 1#1 ∧ ¬ k0_cond4 (grid0.coords t) = 1#1 ∧ 0 < t.val / 5 ∧ t.val % 5 = 4))

end Cert.Kernel.Body

end
-- ==== Proof.WordBodyRunsFirst.lean ====
/-
  (This module is about the program as printed, read at the word level; its twin states the same of the
  idealized program. The two programs have the same text, so the statements and proofs are the same.)

  The body's runs at the points of the first strip (i = 0): chunk k = 0, 0 < k < 4, k = 4.

  Each run: from the eight buffers the body is handed — the six input staging buffers, the output's and the
  scratch, each whole at given contents — the body runs without a fault to the same buffers, the inputs as
  they were, the scratch with the projection chunk stored on its rows when the point is in the first strip
  (else untouched), and the output block at the branch's value of what was loaded: the first chunk's
  product plus the bias, or the block's previous contents plus a middle chunk's product, or plus the masked
  last chunk's. The four conditionals are decided by the case's hypotheses; nothing is computed.
-/
import proofs.«122200_g63917703299193_cont_sun_m_350_28_alg».proof.Proof.Gen.Kernel.Frame
import proofs.«122200_g63917703299193_cont_sun_m_350_28_alg».proof.Proof.Gen.Kernel.Skeleton
import Idealize.ShloMosaic.Lib.Pipeline.Value
import proofs.«122200_g63917703299193_cont_sun_m_350_28_alg».proof.Proof.WordBodyDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem run_first_start (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : k0_cond1 i = 1#1) (hc2 : ¬ k0_cond2 i = 1#1) (hc3 : k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 x1 (View.ld (scrAfter i hc1 x0 x2 x3 x4 x9) rect0) x5) ∗ owns (c : Thread nD τ) arg9 fullShare (scrAfter i hc1 x0 x2 x3 x4 x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr
    rotate_left
    · iexact H9
    · ipureintro
      sl_unfold_words
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]

set_option maxHeartbeats 1000000 in
theorem run_first_middle (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : k0_cond1 i = 1#1) (hc2 : ¬ k0_cond2 i = 1#1) (hc3 : ¬ k0_cond3 i = 1#1) (hc4 : k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay4 x1 x6 (View.ld (scrAfter i hc1 x0 x2 x3 x4 x9) (rect3 i hc4))) ∗ owns (c : Thread nD τ) arg9 fullShare (scrAfter i hc1 x0 x2 x3 x4 x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
      exact congrArg (k0_pay4 x1 x6) (ld_overlay_self (scrRect i hc1) x9 (k0_pay1 i x0 x2 x3 x4)).symm
  · iexists _; isplitr
    rotate_left
    · iexact H9
    · ipureintro
      sl_unfold_words
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]

set_option maxHeartbeats 1000000 in
theorem run_first_last (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : k0_cond1 i = 1#1) (hc2 : k0_cond2 i = 1#1) (hc3 : ¬ k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay2 i x1 x6 (View.ld (scrAfter i hc1 x0 x2 x3 x4 x9) (rect2 i hc2))) ∗ owns (c : Thread nD τ) arg9 fullShare (scrAfter i hc1 x0 x2 x3 x4 x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
      exact congrArg (k0_pay2 i x1 x6) (ld_overlay_self (scrRect i hc1) x9 (k0_pay1 i x0 x2 x3 x4)).symm
  · iexists _; isplitr
    rotate_left
    · iexact H9
    · ipureintro
      sl_unfold_words
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]

end Cert.Kernel.Body

end
-- ==== Proof.WordBodyRunsLater.lean ====
/-
  (This module is about the program as printed, read at the word level; its twin states the same of the
  idealized program. The two programs have the same text, so the statements and proofs are the same.)

  The body's runs at the points of the later strips (i > 0): chunk k = 0, 0 < k < 4, k = 4.

  Each run: from the eight buffers the body is handed — the six input staging buffers, the output's and the
  scratch, each whole at given contents — the body runs without a fault to the same buffers, the inputs as
  they were, the scratch with the projection chunk stored on its rows when the point is in the first strip
  (else untouched), and the output block at the branch's value of what was loaded: the first chunk's
  product plus the bias, or the block's previous contents plus a middle chunk's product, or plus the masked
  last chunk's. The four conditionals are decided by the case's hypotheses; nothing is computed.
-/
import proofs.«122200_g63917703299193_cont_sun_m_350_28_alg».proof.Proof.Gen.Kernel.Frame
import proofs.«122200_g63917703299193_cont_sun_m_350_28_alg».proof.Proof.Gen.Kernel.Skeleton
import Idealize.ShloMosaic.Lib.Pipeline.Value
import proofs.«122200_g63917703299193_cont_sun_m_350_28_alg».proof.Proof.WordBodyDefs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem run_later_start (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : ¬ k0_cond1 i = 1#1) (hc2 : ¬ k0_cond2 i = 1#1) (hc3 : k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 x1 (View.ld x9 rect0) x5) ∗ owns (c : Thread nD τ) arg9 fullShare (x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr; · ipureintro; exact harg9.read_unread _
    iexact H9

set_option maxHeartbeats 1000000 in
theorem run_later_middle (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : ¬ k0_cond1 i = 1#1) (hc2 : ¬ k0_cond2 i = 1#1) (hc3 : ¬ k0_cond3 i = 1#1) (hc4 : k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay4 x1 x6 (View.ld x9 (rect3 i hc4))) ∗ owns (c : Thread nD τ) arg9 fullShare (x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr; · ipureintro; exact harg9.read_unread _
    iexact H9

set_option maxHeartbeats 1000000 in
theorem run_later_last (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : ¬ k0_cond1 i = 1#1) (hc2 : k0_cond2 i = 1#1) (hc3 : ¬ k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay2 i x1 x6 (View.ld x9 (rect2 i hc2))) ∗ owns (c : Thread nD τ) arg9 fullShare (x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr; · ipureintro; exact harg9.read_unread _
    iexact H9

end Cert.Kernel.Body

end
-- ==== Proof.WordFramePlain.lean ====
/-
  (This module is about the program as printed, read at the word level; its twin states the same of the
  idealized program. The two programs have the same text, so the statements and proofs are the same.)

  The frame of the tiled program: every weakly fair execution ends, nothing faults, and the six argument
  arrays end as they began.

  Nothing about what the body computes is needed for this, so nothing is named: every window's staging buffer is
  handed to the body at arbitrary contents and taken back at arbitrary contents, and the scratch likewise. What
  remains is that the body is safe at every grid point — each load and store lies inside its buffer — which the
  six runs give, one for each pattern of branches the grid meets. The argument arrays are then unchanged because
  no input window is ever written back (windows 0, 1, 2, 4 stage x, conn, W1, Wg) and because b1 and bg are staged
  through reshaped copies, not themselves.
-/
import proofs.«122200_g63917703299193_cont_sun_m_350_28_alg».proof.Proof.Gen.Kernel.Frame
import proofs.«122200_g63917703299193_cont_sun_m_350_28_alg».proof.Proof.Gen.Kernel.Skeleton
import Idealize.ShloMosaic.Lib.Pipeline.Value
import proofs.«122200_g63917703299193_cont_sun_m_350_28_alg».proof.Proof.WordBodyRunsFirst
import proofs.«122200_g63917703299193_cont_sun_m_350_28_alg».proof.Proof.WordBodyRunsLater
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is left unnamed. -/
def forgetAll : Fin 7 → Bool := fun _ => true

/-- The proof data: the arrays as the region finds them; after the body nothing named; the scratch and the
    generator register at some contents; nothing owed; full shares. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eqF (c : Dev nD) (w : Fin cfg0.W) : (datsF m 0 c).A w = V m c (Pipeline.arrRef spec0 w) := by
  dsimp only [datsF]

/-- Each window's current staging memref at point t, as the pipeline passes it, and its wholeness. -/
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2000x16 .f32 := win0_6.stage (cfg0.slots t 6)
abbrev hs6 (t : Fin cfg0.N) : (ms6 t).IsWhole := hstage0_6 ((cfg0.slots t 6).cast nbuf0_6)
/-- The scratch: a whole scoped buffer of the kernel's own, passed beside the windows. -/
abbrev scM : Memref sig .tc .vmem S10240x16 .f32 := Memref.whole cc0_scratch0

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point t when nothing is named, -/
def prePlain (c : Dev nD) (t : Fin cfg0.N) : sProp 𝕄 :=
  iprop(Pipeline.ΦA spec0 c ∗ (datsF m 0 c).owesAt () t.castSucc
    ∗ (∃ X, owns (c : Thread nD τ) (ms0 t) fullShare X) ∗ (∃ X, owns (c : Thread nD τ) (ms1 t) fullShare X)
    ∗ (∃ X, owns (c : Thread nD τ) (ms2 t) fullShare X) ∗ (∃ X, owns (c : Thread nD τ) (ms3 t) fullShare X)
    ∗ (∃ X, owns (c : Thread nD τ) (ms4 t) fullShare X) ∗ (∃ X, owns (c : Thread nD τ) (ms5 t) fullShare X)
    ∗ (∃ X, owns (c : Thread nD τ) (ms6 t) fullShare X))

/-- and what it returns: the same. -/
def postPlain (c : Dev nD) (t : Fin cfg0.N) : sProp 𝕄 :=
  iprop(Pipeline.ΦA spec0 c ∗ (datsF m 0 c).owesAt () t.succ
    ∗ (∃ X, owns (c : Thread nD τ) (ms0 t) fullShare X) ∗ (∃ X, owns (c : Thread nD τ) (ms1 t) fullShare X)
    ∗ (∃ X, owns (c : Thread nD τ) (ms2 t) fullShare X) ∗ (∃ X, owns (c : Thread nD τ) (ms3 t) fullShare X)
    ∗ (∃ X, owns (c : Thread nD τ) (ms4 t) fullShare X) ∗ (∃ X, owns (c : Thread nD τ) (ms5 t) fullShare X)
    ∗ (∃ X, owns (c : Thread nD τ) (ms6 t) fullShare X))

set_option hygiene false in
/-- Giving a run its eight buffers and taking them back unnamed: the same steps whichever run applies. -/
macro "hand_over" : tactic => `(tactic| (
  isplitl [H0 H1 H2 H3 H4 H5 H6 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H9
  iintro ⟨H0, H1, H2, H3, H4, H5, H6, H9⟩
  isplitl [H9 Hr]
  · isplitl [H9]; · iexists _; iexact H9
    iexact Hr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6))

set_option maxHeartbeats 1000000 in
/-- The body is safe at every point, from any contents to some contents. -/
theorem safe_body (c : Dev nD) (t : Fin cfg0.N) :
    prePlain m c t ⊢ wp frame (wpE (defs₀ (F := F)) Variants.none c none) Set.univ (bodyAt0 t) (fun _ => postPlain m c t) := by
  unfold prePlain postPlain bodyAt0
  rw [show (datsF m 0 c).owesAt () t.succ = (datsF m 0 c).owesAt () t.castSucc from rfl, PhiA_eq]
  iintro ⟨⟨⟨%x9, H9⟩, Hr⟩, Ho, ⟨%x0, H0⟩, ⟨%x1, H1⟩, ⟨%x2, H2⟩, ⟨%x3, H3⟩, ⟨%x4, H4⟩, ⟨%x5, H5⟩, ⟨%x6, H6⟩⟩
  rcases cases_at t with ⟨h1, h2, h3, h4, -, -⟩ | ⟨h1, h2, h3, h4, -, -, -⟩ | ⟨h1, h2, h3, h4, -, -⟩ | ⟨h1, h2, h3, h4, -, -⟩ | ⟨h1, h2, h3, h4, -, -, -⟩ | ⟨h1, h2, h3, h4, -, -⟩
  · iapply (run_first_start c (grid0.coords t) _ _ _ _ _ _ _ _ _ _ _ _ _ _ _ _ h1 h2 h3 h4 x0 x1 x2 x3 x4 x5 x6 x9 Set.univ _)
    hand_over
  · iapply (run_first_middle c (grid0.coords t) _ _ _ _ _ _ _ _ _ _ _ _ _ _ _ _ h1 h2 h3 h4 x0 x1 x2 x3 x4 x5 x6 x9 Set.univ _)
    hand_over
  · iapply (run_first_last c (grid0.coords t) _ _ _ _ _ _ _ _ _ _ _ _ _ _ _ _ h1 h2 h3 h4 x0 x1 x2 x3 x4 x5 x6 x9 Set.univ _)
    hand_over
  · iapply (run_later_start c (grid0.coords t) _ _ _ _ _ _ _ _ _ _ _ _ _ _ _ _ h1 h2 h3 h4 x0 x1 x2 x3 x4 x5 x6 x9 Set.univ _)
    hand_over
  · iapply (run_later_middle c (grid0.coords t) _ _ _ _ _ _ _ _ _ _ _ _ _ _ _ _ h1 h2 h3 h4 x0 x1 x2 x3 x4 x5 x6 x9 Set.univ _)
    hand_over
  · iapply (run_later_last c (grid0.coords t) _ _ _ _ _ _ _ _ _ _ _ _ _ _ _ _ h1 h2 h3 h4 x0 x1 x2 x3 x4 x5 x6 x9 Set.univ _)
    hand_over

/-- The library's body obligation with every window unnamed. -/
theorem body_obligationF (c : Dev nD) :
    BodyObligationLoose (datsF (F := F) m 0 c) (defs₀ (F := F)) Variants.none () Set.univ forgetAll := fun t => by
  rw [bigSep_W0, bigSep_W0]
  exact safe_body m c t

set_option backward.isDefEq.respectTransparency.types false in
/-- Every weakly fair execution of the program ends, nothing faulting; every input window's array holds what it
    held at the region's entry, and so does every unscoped buffer no window stages. -/
theorem run_plain : θ_run defs (onTc (τ := τ) (main (F := F))) (s₀ m ρ)
    (Pipeline.RDat.FramePost (cfgs 0) (fun c => (datsF m 0 c).toRForget forgetAll) (V m)) :=
  Pipeline.RDat.θ_run_frame cfgs (0 : Fin 1) launch0 defs₀ Variants.none (fun c => (datsF m 0 c).toRForget forgetAll) m ρ main
    (hbody := fun c => (body_obligationF m c).toRForget) (hshare := fun c => ((datsF m 0 c).toRForget forgetAll).share_full fun _ => rfl)
    (howed := fun _ _ => rfl) (V := V m) (hmain := hmain m Variants.none) (hA := A_eqF m) (hΦ := fun _ _ => rfl)

/-- The frame: the six argument arrays end as they began. An array an input window stages is never written back;
    b1 and bg are staged through copies and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((congrFun (Pipeline.RDat.ArrAt_in ((datsF m 0 c).toRForget forgetAll) 0 rfl _) _).mp ((h c).1 0)).trans ((A_eqF m c 0).trans (V_main_arg0 m c)),
     ((congrFun (Pipeline.RDat.ArrAt_in ((datsF m 0 c).toRForget forgetAll) 1 rfl _) _).mp ((h c).1 1)).trans ((A_eqF m c 1).trans (V_main_arg1 m c)),
     ((congrFun (Pipeline.RDat.ArrAt_in ((datsF m 0 c).toRForget forgetAll) 2 rfl _) _).mp ((h c).1 2)).trans ((A_eqF m c 2).trans (V_main_arg2 m c)),
     ((h c).2 main_arg3 (Pipeline.mem_restRefs_of main_arg3 (by decide) (by decide))).trans (V_main_arg3 m c),
     ((congrFun (Pipeline.RDat.ArrAt_in ((datsF m 0 c).toRForget forgetAll) 4 rfl _) _).mp ((h c).1 4)).trans ((A_eqF m c 4).trans (V_main_arg4 m c)),
     ((h c).2 main_arg5 (Pipeline.mem_restRefs_of main_arg5 (by decide) (by decide))).trans (V_main_arg5 m c)⟩) (run_plain m ρ)

end Cert.Kernel.Body

end
-- ==== Proof.BodyDefs.lean ====
/-
  What the kernel's body does at one grid point, by the branches it takes.

  The body has four conditionals on the grid coordinates (strip i, chunk k): "i = 0" (compute chunk k of
  the projection and store it into rows 2048 k … 2048 k + 2047 of the scratch), "k = 4" (add the masked last
  chunk's product to the output block), "k = 0" (start the output block: first chunk's product plus the bias)
  and "0 < k < 4" (add a middle chunk's product). On the 5 × 5 grid exactly six patterns of the four occur:
  i = 0 or not, with k = 0, 0 < k < 4 or k = 4. This module names the pieces the six runs are stated over:
  the rows of the scratch each branch touches, what the scratch holds after the projection store (the chunk
  on its rows, the old contents elsewhere), the read-back of one store through a rectangle, and the decided
  list of patterns with the point's strip and chunk.
-/
import proofs.«122200_g63917703299193_cont_sun_m_350_28_alg».proof.Proof.Gen.KernelIdeal.Frame
import proofs.«122200_g63917703299193_cont_sun_m_350_28_alg».proof.Proof.Gen.KernelIdeal.Skeleton
import Idealize.ShloMosaic.Lib.Pipeline.Value
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The zero offsets, however spelt. -/
theorem hz2 : (![0, 0] : Fin 2 → Nat) = fun _ => 0 := funext fun a => by fin_cases a <;> rfl

/-- One store through a rectangle, read back: the payload on the rectangle, the old contents off it. -/
theorem read_writes_one {κ : Kind} {sp : Space} {s : Shape} {e : EltTy} (v : View sig κ sp s e) (f : v.ty.Contents (Elt F))
    (r : Rect s) (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y _ (fun p hp => by
      rw [List.mem_singleton] at hp; subst hp; exact hy), Rect.overlay_of_not_mem _ _ _ hy]

/-- A load through the very rectangle the one store went through reads the payload, -/
theorem readCov_self {κ : Kind} {sp : Space} {s : Shape} {e : EltTy} (v : View sig κ sp s e) (r : Rect s)
    (w : r.shape.Idx → Elt F e) : v.readCov [⟨r, w⟩] r.toLoadRect = w := by
  rw [View.readCov_eq_canon v _ _ (fun j => ⟨_, List.mem_singleton_self _, r.idx_mem j⟩)]
  funext j
  exact View.canon_cons_emb r w [] j

/-- and so does reading the overlaid contents through it. -/
theorem ld_overlay_self {s : Shape} {e : EltTy} (r : Rect s) (X : s.Idx → Elt F e) (w : r.shape.Idx → Elt F e) :
    View.ld (r.overlay X w) r = w := by
  funext j; exact r.overlay_emb X w j

/-- The rows of the scratch the projection store at point i writes: 2048 k … 2048 k + 2047. -/
abbrev scrRect (i : grid0.Coords) (h1 : k0_cond1 i = 1#1) : Rect S10240x16 :=
  Rect.unit (s := S10240x16) (k0_off1 i) S2048x16.size (k0_off1_inb i h1)

/-- The scratch after that store: the projection chunk on those rows, the old contents elsewhere. -/
def scrAfter (i : grid0.Coords) (h1 : k0_cond1 i = 1#1) (x0 : Vec F S2048x128 .f32) (x2 : Vec F S128x64 .f32)
    (x3 : Vec F S1x64 .f32) (x4 : Vec F S64x16 .f32) (x9 : Vec F S10240x16 .f32) : Vec F S10240x16 .f32 :=
  (scrRect i h1).overlay x9 (k0_pay1 i x0 x2 x3 x4)

/-- The first 2048 rows of the scratch, as the first-chunk product loads them. -/
abbrev rect0 : Rect S10240x16 := Rect.unit (s := S10240x16) ![0, 0] S2048x16.size inb_S10240x16_S2048x16_0_0

/-- The rows of the scratch the last chunk's product loads (k = 4): 2048 k … -/
abbrev rect2 (i : grid0.Coords) (h2 : k0_cond2 i = 1#1) : Rect S10240x16 :=
  Rect.unit (s := S10240x16) (k0_off2 i) S2048x16.size (k0_off2_inb i h2)

/-- The rows of the scratch a middle chunk's product loads (0 < k < 4): 2048 k … -/
abbrev rect3 (i : grid0.Coords) (h4 : k0_cond4 i = 1#1) : Rect S10240x16 :=
  Rect.unit (s := S10240x16) (k0_off3 i) S2048x16.size (k0_off3_inb i h4)

/-- The strip and the chunk of grid point t. -/
theorem coords_at : ∀ t : Fin cfg0.N, (grid0.coords t 0).val = t.val / 5 ∧ (grid0.coords t 1).val = t.val % 5 :=
  (by decide +kernel : ∀ t : Fin grid0.N, (grid0.coords t 0).val = t.val / 5 ∧ (grid0.coords t 1).val = t.val % 5)

/-- At every grid point exactly one of six patterns of the four conditions holds, and it says where the point
    is: the first strip or a later one, the first chunk, a middle one or the last. -/
theorem cases_at : ∀ t : Fin cfg0.N,
      (k0_cond1 (grid0.coords t) = 1#1 ∧ ¬ k0_cond2 (grid0.coords t) = 1#1 ∧ k0_cond3 (grid0.coords t) = 1#1 ∧ ¬ k0_cond4 (grid0.coords t) = 1#1 ∧ t.val / 5 = 0 ∧ t.val % 5 = 0)
    ∨ (k0_cond1 (grid0.coords t) = 1#1 ∧ ¬ k0_cond2 (grid0.coords t) = 1#1 ∧ ¬ k0_cond3 (grid0.coords t) = 1#1 ∧ k0_cond4 (grid0.coords t) = 1#1 ∧ t.val / 5 = 0 ∧ 0 < t.val % 5 ∧ t.val % 5 < 4)
    ∨ (k0_cond1 (grid0.coords t) = 1#1 ∧ k0_cond2 (grid0.coords t) = 1#1 ∧ ¬ k0_cond3 (grid0.coords t) = 1#1 ∧ ¬ k0_cond4 (grid0.coords t) = 1#1 ∧ t.val / 5 = 0 ∧ t.val % 5 = 4)
    ∨ (¬ k0_cond1 (grid0.coords t) = 1#1 ∧ ¬ k0_cond2 (grid0.coords t) = 1#1 ∧ k0_cond3 (grid0.coords t) = 1#1 ∧ ¬ k0_cond4 (grid0.coords t) = 1#1 ∧ 0 < t.val / 5 ∧ t.val % 5 = 0)
    ∨ (¬ k0_cond1 (grid0.coords t) = 1#1 ∧ ¬ k0_cond2 (grid0.coords t) = 1#1 ∧ ¬ k0_cond3 (grid0.coords t) = 1#1 ∧ k0_cond4 (grid0.coords t) = 1#1 ∧ 0 < t.val / 5 ∧ 0 < t.val % 5 ∧ t.val % 5 < 4)
    ∨ (¬ k0_cond1 (grid0.coords t) = 1#1 ∧ k0_cond2 (grid0.coords t) = 1#1 ∧ ¬ k0_cond3 (grid0.coords t) = 1#1 ∧ ¬ k0_cond4 (grid0.coords t) = 1#1 ∧ 0 < t.val / 5 ∧ t.val % 5 = 4) :=
  (by decide +kernel : ∀ t : Fin grid0.N,
      (k0_cond1 (grid0.coords t) = 1#1 ∧ ¬ k0_cond2 (grid0.coords t) = 1#1 ∧ k0_cond3 (grid0.coords t) = 1#1 ∧ ¬ k0_cond4 (grid0.coords t) = 1#1 ∧ t.val / 5 = 0 ∧ t.val % 5 = 0)
    ∨ (k0_cond1 (grid0.coords t) = 1#1 ∧ ¬ k0_cond2 (grid0.coords t) = 1#1 ∧ ¬ k0_cond3 (grid0.coords t) = 1#1 ∧ k0_cond4 (grid0.coords t) = 1#1 ∧ t.val / 5 = 0 ∧ 0 < t.val % 5 ∧ t.val % 5 < 4)
    ∨ (k0_cond1 (grid0.coords t) = 1#1 ∧ k0_cond2 (grid0.coords t) = 1#1 ∧ ¬ k0_cond3 (grid0.coords t) = 1#1 ∧ ¬ k0_cond4 (grid0.coords t) = 1#1 ∧ t.val / 5 = 0 ∧ t.val % 5 = 4)
    ∨ (¬ k0_cond1 (grid0.coords t) = 1#1 ∧ ¬ k0_cond2 (grid0.coords t) = 1#1 ∧ k0_cond3 (grid0.coords t) = 1#1 ∧ ¬ k0_cond4 (grid0.coords t) = 1#1 ∧ 0 < t.val / 5 ∧ t.val % 5 = 0)
    ∨ (¬ k0_cond1 (grid0.coords t) = 1#1 ∧ ¬ k0_cond2 (grid0.coords t) = 1#1 ∧ ¬ k0_cond3 (grid0.coords t) = 1#1 ∧ k0_cond4 (grid0.coords t) = 1#1 ∧ 0 < t.val / 5 ∧ 0 < t.val % 5 ∧ t.val % 5 < 4)
    ∨ (¬ k0_cond1 (grid0.coords t) = 1#1 ∧ k0_cond2 (grid0.coords t) = 1#1 ∧ ¬ k0_cond3 (grid0.coords t) = 1#1 ∧ ¬ k0_cond4 (grid0.coords t) = 1#1 ∧ 0 < t.val / 5 ∧ t.val % 5 = 4))

end Cert.KernelIdeal.Body

end
-- ==== Proof.BodyRunsFirst.lean ====
/-
  The body's runs at the points of the first strip (i = 0): chunk k = 0, 0 < k < 4, k = 4.

  Each run: from the eight buffers the body is handed — the six input staging buffers, the output's and the
  scratch, each whole at given contents — the body runs without a fault to the same buffers, the inputs as
  they were, the scratch with the projection chunk stored on its rows when the point is in the first strip
  (else untouched), and the output block at the branch's value of what was loaded: the first chunk's
  product plus the bias, or the block's previous contents plus a middle chunk's product, or plus the masked
  last chunk's. The four conditionals are decided by the case's hypotheses; nothing is computed.
-/
import proofs.«122200_g63917703299193_cont_sun_m_350_28_alg».proof.Proof.Gen.KernelIdeal.Frame
import proofs.«122200_g63917703299193_cont_sun_m_350_28_alg».proof.Proof.Gen.KernelIdeal.Skeleton
import Idealize.ShloMosaic.Lib.Pipeline.Value
import proofs.«122200_g63917703299193_cont_sun_m_350_28_alg».proof.Proof.BodyDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem run_first_start (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : k0_cond1 i = 1#1) (hc2 : ¬ k0_cond2 i = 1#1) (hc3 : k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 x1 (View.ld (scrAfter i hc1 x0 x2 x3 x4 x9) rect0) x5) ∗ owns (c : Thread nD τ) arg9 fullShare (scrAfter i hc1 x0 x2 x3 x4 x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr
    rotate_left
    · iexact H9
    · ipureintro
      sl_unfold_words
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]

set_option maxHeartbeats 1000000 in
theorem run_first_middle (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : k0_cond1 i = 1#1) (hc2 : ¬ k0_cond2 i = 1#1) (hc3 : ¬ k0_cond3 i = 1#1) (hc4 : k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay4 x1 x6 (View.ld (scrAfter i hc1 x0 x2 x3 x4 x9) (rect3 i hc4))) ∗ owns (c : Thread nD τ) arg9 fullShare (scrAfter i hc1 x0 x2 x3 x4 x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
      exact congrArg (k0_pay4 x1 x6) (ld_overlay_self (scrRect i hc1) x9 (k0_pay1 i x0 x2 x3 x4)).symm
  · iexists _; isplitr
    rotate_left
    · iexact H9
    · ipureintro
      sl_unfold_words
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]

set_option maxHeartbeats 1000000 in
theorem run_first_last (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : k0_cond1 i = 1#1) (hc2 : k0_cond2 i = 1#1) (hc3 : ¬ k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay2 i x1 x6 (View.ld (scrAfter i hc1 x0 x2 x3 x4 x9) (rect2 i hc2))) ∗ owns (c : Thread nD τ) arg9 fullShare (scrAfter i hc1 x0 x2 x3 x4 x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
      exact congrArg (k0_pay2 i x1 x6) (ld_overlay_self (scrRect i hc1) x9 (k0_pay1 i x0 x2 x3 x4)).symm
  · iexists _; isplitr
    rotate_left
    · iexact H9
    · ipureintro
      sl_unfold_words
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]

end Cert.KernelIdeal.Body

end
-- ==== Proof.BodyRunsLater.lean ====
/-
  The body's runs at the points of the later strips (i > 0): chunk k = 0, 0 < k < 4, k = 4.

  Each run: from the eight buffers the body is handed — the six input staging buffers, the output's and the
  scratch, each whole at given contents — the body runs without a fault to the same buffers, the inputs as
  they were, the scratch with the projection chunk stored on its rows when the point is in the first strip
  (else untouched), and the output block at the branch's value of what was loaded: the first chunk's
  product plus the bias, or the block's previous contents plus a middle chunk's product, or plus the masked
  last chunk's. The four conditionals are decided by the case's hypotheses; nothing is computed.
-/
import proofs.«122200_g63917703299193_cont_sun_m_350_28_alg».proof.Proof.Gen.KernelIdeal.Frame
import proofs.«122200_g63917703299193_cont_sun_m_350_28_alg».proof.Proof.Gen.KernelIdeal.Skeleton
import Idealize.ShloMosaic.Lib.Pipeline.Value
import proofs.«122200_g63917703299193_cont_sun_m_350_28_alg».proof.Proof.BodyDefs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
theorem run_later_start (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : ¬ k0_cond1 i = 1#1) (hc2 : ¬ k0_cond2 i = 1#1) (hc3 : k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 x1 (View.ld x9 rect0) x5) ∗ owns (c : Thread nD τ) arg9 fullShare (x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr; · ipureintro; exact harg9.read_unread _
    iexact H9

set_option maxHeartbeats 1000000 in
theorem run_later_middle (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : ¬ k0_cond1 i = 1#1) (hc2 : ¬ k0_cond2 i = 1#1) (hc3 : ¬ k0_cond3 i = 1#1) (hc4 : k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay4 x1 x6 (View.ld x9 (rect3 i hc4))) ∗ owns (c : Thread nD τ) arg9 fullShare (x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr; · ipureintro; exact harg9.read_unread _
    iexact H9

set_option maxHeartbeats 1000000 in
theorem run_later_last (c : Dev nD) (i : grid0.Coords) (arg2 : Memref sig .tc .vmem S2048x128 .f32) (harg2 : arg2.IsWhole) (arg3 : Memref sig .tc .vmem S2000x2048 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S2000x16 .f32) (harg8 : arg8.IsWhole) (arg9 : Memref sig .tc .vmem S10240x16 .f32) (harg9 : arg9.IsWhole)
    (hc1 : ¬ k0_cond1 i = 1#1) (hc2 : k0_cond2 i = 1#1) (hc3 : ¬ k0_cond3 i = 1#1) (hc4 : ¬ k0_cond4 i = 1#1)
    (x0 : Vec F S2048x128 .f32) (x1 : Vec F S2000x2048 .f32) (x2 : Vec F S128x64 .f32) (x3 : Vec F S1x64 .f32)
    (x4 : Vec F S64x16 .f32) (x5 : Vec F S1x16 .f32) (x6 : Vec F S2000x16 .f32) (x9 : Vec F S10240x16 .f32) (E : Set ℕ) (K : PUnit → sProp 𝕄) :
    iprop((owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x9)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay2 i x1 x6 (View.ld x9 (rect2 i hc2))) ∗ owns (c : Thread nD τ) arg9 fullShare (x9)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf9
  sl_exec (disch := first | exact hc1 | exact hc2 | exact hc3 | exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    rotate_left
    · iexact H6
    · ipureintro
      sl_unfold_words
      rw [View.read_writes_eq_canon _ _ _ (fun y => ⟨_, List.mem_singleton_self _, View.mem_set_unit_zero hz2 inb_S2000x16_S2000x16_0_0 y⟩), View.canon_unit_zero hz2]
      simp only [View.readAt_eq_ld, harg2.read_unread, harg3.read_unread, harg4.read_unread, harg5.read_unread, harg6.read_unread, harg7.read_unread, harg8.read_unread, harg9.read_unread, View.ld_unit_zero (S := S2048x128) hz2, View.ld_unit_zero (S := S2000x2048) hz2, View.ld_unit_zero (S := S128x64) hz2, View.ld_unit_zero (S := S1x64) hz2, View.ld_unit_zero (S := S64x16) hz2, View.ld_unit_zero (S := S1x16) hz2, View.ld_unit_zero (S := S2000x16) hz2, read_writes_one, readCov_self, ld_overlay_self, scrAfter, scrRect, rect0, k0_off1, k0_off2, k0_off3, rect2, rect3]
  · iexists _; isplitr; · ipureintro; exact harg9.read_unread _
    iexact H9

end Cert.KernelIdeal.Body

end
-- ==== Proof.FramePlain.lean ====
/-
  The frame of the tiled program: every weakly fair execution ends, nothing faults, and the six argument
  arrays end as they began.

  Nothing about what the body computes is needed for this, so nothing is named: every window's staging buffer is
  handed to the body at arbitrary contents and taken back at arbitrary contents, and the scratch likewise. What
  remains is that the body is safe at every grid point — each load and store lies inside its buffer — which the
  six runs give, one for each pattern of branches the grid meets. The argument arrays are then unchanged because
  no input window is ever written back (windows 0, 1, 2, 4 stage x, conn, W1, Wg) and because b1 and bg are staged
  through reshaped copies, not themselves.
-/
import proofs.«122200_g63917703299193_cont_sun_m_350_28_alg».proof.Proof.Gen.KernelIdeal.Frame
import proofs.«122200_g63917703299193_cont_sun_m_350_28_alg».proof.Proof.Gen.KernelIdeal.Skeleton
import Idealize.ShloMosaic.Lib.Pipeline.Value
import proofs.«122200_g63917703299193_cont_sun_m_350_28_alg».proof.Proof.BodyRunsFirst
import proofs.«122200_g63917703299193_cont_sun_m_350_28_alg».proof.Proof.BodyRunsLater
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is left unnamed. -/
def forgetAll : Fin 7 → Bool := fun _ => true

/-- The proof data: the arrays as the region finds them; after the body nothing named; the scratch and the
    generator register at some contents; nothing owed; full shares. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eqF (c : Dev nD) (w : Fin cfg0.W) : (datsF m 0 c).A w = V m c (Pipeline.arrRef spec0 w) := by
  dsimp only [datsF]

/-- Each window's current staging memref at point t, as the pipeline passes it, and its wholeness. -/
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2000x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2000x16 .f32 := win0_6.stage (cfg0.slots t 6)
abbrev hs6 (t : Fin cfg0.N) : (ms6 t).IsWhole := hstage0_6 ((cfg0.slots t 6).cast nbuf0_6)
/-- The scratch: a whole scoped buffer of the kernel's own, passed beside the windows. -/
abbrev scM : Memref sig .tc .vmem S10240x16 .f32 := Memref.whole cc0_scratch0

/-- The region's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point t when nothing is named, -/
def prePlain (c : Dev nD) (t : Fin cfg0.N) : sProp 𝕄 :=
  iprop(Pipeline.ΦA spec0 c ∗ (datsF m 0 c).owesAt () t.castSucc
    ∗ (∃ X, owns (c : Thread nD τ) (ms0 t) fullShare X) ∗ (∃ X, owns (c : Thread nD τ) (ms1 t) fullShare X)
    ∗ (∃ X, owns (c : Thread nD τ) (ms2 t) fullShare X) ∗ (∃ X, owns (c : Thread nD τ) (ms3 t) fullShare X)
    ∗ (∃ X, owns (c : Thread nD τ) (ms4 t) fullShare X) ∗ (∃ X, owns (c : Thread nD τ) (ms5 t) fullShare X)
    ∗ (∃ X, owns (c : Thread nD τ) (ms6 t) fullShare X))

/-- and what it returns: the same. -/
def postPlain (c : Dev nD) (t : Fin cfg0.N) : sProp 𝕄 :=
  iprop(Pipeline.ΦA spec0 c ∗ (datsF m 0 c).owesAt () t.succ
    ∗ (∃ X, owns (c : Thread nD τ) (ms0 t) fullShare X) ∗ (∃ X, owns (c : Thread nD τ) (ms1 t) fullShare X)
    ∗ (∃ X, owns (c : Thread nD τ) (ms2 t) fullShare X) ∗ (∃ X, owns (c : Thread nD τ) (ms3 t) fullShare X)
    ∗ (∃ X, owns (c : Thread nD τ) (ms4 t) fullShare X) ∗ (∃ X, owns (c : Thread nD τ) (ms5 t) fullShare X)
    ∗ (∃ X, owns (c : Thread nD τ) (ms6 t) fullShare X))

set_option hygiene false in
/-- Giving a run its eight buffers and taking them back unnamed: the same steps whichever run applies. -/
macro "hand_over" : tactic => `(tactic| (
  isplitl [H0 H1 H2 H3 H4 H5 H6 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H9
  iintro ⟨H0, H1, H2, H3, H4, H5, H6, H9⟩
  isplitl [H9 Hr]
  · isplitl [H9]; · iexists _; iexact H9
    iexact Hr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6))

set_option maxHeartbeats 1000000 in
/-- The body is safe at every point, from any contents to some contents. -/
theorem safe_body (c : Dev nD) (t : Fin cfg0.N) :
    prePlain m c t ⊢ wp frame (wpE (defs₀ (F := F)) Variants.none c none) Set.univ (bodyAt0 t) (fun _ => postPlain m c t) := by
  unfold prePlain postPlain bodyAt0
  rw [show (datsF m 0 c).owesAt () t.succ = (datsF m 0 c).owesAt () t.castSucc from rfl, PhiA_eq]
  iintro ⟨⟨⟨%x9, H9⟩, Hr⟩, Ho, ⟨%x0, H0⟩, ⟨%x1, H1⟩, ⟨%x2, H2⟩, ⟨%x3, H3⟩, ⟨%x4, H4⟩, ⟨%x5, H5⟩, ⟨%x6, H6⟩⟩
  rcases cases_at t with ⟨h1, h2, h3, h4, -, -⟩ | ⟨h1, h2, h3, h4, -, -, -⟩ | ⟨h1, h2, h3, h4, -, -⟩ | ⟨h1, h2, h3, h4, -, -⟩ | ⟨h1, h2, h3, h4, -, -, -⟩ | ⟨h1, h2, h3, h4, -, -⟩
  · iapply (run_first_start c (grid0.coords t) _ _ _ _ _ _ _ _ _ _ _ _ _ _ _ _ h1 h2 h3 h4 x0 x1 x2 x3 x4 x5 x6 x9 Set.univ _)
    hand_over
  · iapply (run_first_middle c (grid0.coords t) _ _ _ _ _ _ _ _ _ _ _ _ _ _ _ _ h1 h2 h3 h4 x0 x1 x2 x3 x4 x5 x6 x9 Set.univ _)
    hand_over
  · iapply (run_first_last c (grid0.coords t) _ _ _ _ _ _ _ _ _ _ _ _ _ _ _ _ h1 h2 h3 h4 x0 x1 x2 x3 x4 x5 x6 x9 Set.univ _)
    hand_over
  · iapply (run_later_start c (grid0.coords t) _ _ _ _ _ _ _ _ _ _ _ _ _ _ _ _ h1 h2 h3 h4 x0 x1 x2 x3 x4 x5 x6 x9 Set.univ _)
    hand_over
  · iapply (run_later_middle c (grid0.coords t) _ _ _ _ _ _ _ _ _ _ _ _ _ _ _ _ h1 h2 h3 h4 x0 x1 x2 x3 x4 x5 x6 x9 Set.univ _)
    hand_over
  · iapply (run_later_last c (grid0.coords t) _ _ _ _ _ _ _ _ _ _ _ _ _ _ _ _ h1 h2 h3 h4 x0 x1 x2 x3 x4 x5 x6 x9 Set.univ _)
    hand_over

/-- The library's body obligation with every window unnamed. -/
theorem body_obligationF (c : Dev nD) :
    BodyObligationLoose (datsF (F := F) m 0 c) (defs₀ (F := F)) Variants.none () Set.univ forgetAll := fun t => by
  rw [bigSep_W0, bigSep_W0]
  exact safe_body m c t

set_option backward.isDefEq.respectTransparency.types false in
/-- Every weakly fair execution of the program ends, nothing faulting; every input window's array holds what it
    held at the region's entry, and so does every unscoped buffer no window stages. -/
theorem run_plain : θ_run defs (onTc (τ := τ) (main (F := F))) (s₀ m ρ)
    (Pipeline.RDat.FramePost (cfgs 0) (fun c => (datsF m 0 c).toRForget forgetAll) (V m)) :=
  Pipeline.RDat.θ_run_frame cfgs (0 : Fin 1) launch0 defs₀ Variants.none (fun c => (datsF m 0 c).toRForget forgetAll) m ρ main
    (hbody := fun c => (body_obligationF m c).toRForget) (hshare := fun c => ((datsF m 0 c).toRForget forgetAll).share_full fun _ => rfl)
    (howed := fun _ _ => rfl) (V := V m) (hmain := hmain m Variants.none) (hA := A_eqF m) (hΦ := fun _ _ => rfl)

/-- The frame: the six argument arrays end as they began. An array an input window stages is never written back;
    b1 and bg are staged through copies and bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((congrFun (Pipeline.RDat.ArrAt_in ((datsF m 0 c).toRForget forgetAll) 0 rfl _) _).mp ((h c).1 0)).trans ((A_eqF m c 0).trans (V_main_arg0 m c)),
     ((congrFun (Pipeline.RDat.ArrAt_in ((datsF m 0 c).toRForget forgetAll) 1 rfl _) _).mp ((h c).1 1)).trans ((A_eqF m c 1).trans (V_main_arg1 m c)),
     ((congrFun (Pipeline.RDat.ArrAt_in ((datsF m 0 c).toRForget forgetAll) 2 rfl _) _).mp ((h c).1 2)).trans ((A_eqF m c 2).trans (V_main_arg2 m c)),
     ((h c).2 main_arg3 (Pipeline.mem_restRefs_of main_arg3 (by decide) (by decide))).trans (V_main_arg3 m c),
     ((congrFun (Pipeline.RDat.ArrAt_in ((datsF m 0 c).toRForget forgetAll) 4 rfl _) _).mp ((h c).1 4)).trans ((A_eqF m c 4).trans (V_main_arg4 m c)),
     ((h c).2 main_arg5 (Pipeline.mem_restRefs_of main_arg5 (by decide) (by decide))).trans (V_main_arg5 m c)⟩) (run_plain m ρ)

end Cert.KernelIdeal.Body

end
-- ==== Proof.BlockReads.lean ====
/-
  What the tiled program's body finds in each input window at a grid point, entry by entry, in terms of the six
  argument arrays.

  The grid has 25 points; point t works on row strip t / 5 (2000 rows) and column chunk t % 5 (2048 columns).
  A window's block at a point is a rectangle of its array: the entry at place y of the block sits in the array,
  on each axis, at  block index × block size + y.  The block indices are read off the index maps once, for all
  25 points.

  * The two weight matrices and the two biases are single blocks at block index (0, 0): the block is the array.
    Each bias reaches the region as a one-row matrix, the vector laid out row-major, so its entry (0, h) is the
    vector's entry h.
  * The feature window (2048 × 128, block index (t % 5, 0)) and the connectivity window (2000 × 2048, block
    index (t / 5, t % 5)) reach 240 places past the array on chunk 4, since 5 · 2048 = 10240 > 10000. A transfer
    moves only the block's part inside the array — all 2048 places of the cut axis on chunks 0..3, the first
    10000 − 4 · 2048 = 1808 on chunk 4 — and leaves whatever stood in the rest. So at a place whose array
    coordinate 2048 · (t % 5) + y is below 10000 the window holds the array's entry, whatever stood there
    before; nothing is said about the other places.
-/
import proofs.«122200_g63917703299193_cont_sun_m_350_28_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.BlockReads

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The two weight windows sit at block index (0, 0) at every grid point. -/
theorem idx_facts24 : ∀ t : Fin cfg0.N, win0_2.index t (0 : Fin 2) = 0 ∧ win0_2.index t (1 : Fin 2) = 0
    ∧ win0_4.index t (0 : Fin 2) = 0 ∧ win0_4.index t (1 : Fin 2) = 0 :=
  (by decide +kernel : ∀ t : Fin grid0.N, _)

/-- The first weight matrix's block is the whole matrix. -/
theorem w1_blk (c : Dev nD) (t : Fin cfg0.N) (y : ((cfg0.win 2).xblock (cfg0.grid.coords t)).Idx) (i : S128x64.Idx)
    (h0 : (i 0).val = (y 0).val) (h1 : (i 1).val = (y 1).val) :
    iblk m c 2 t y = m ((c : Thread nD τ).loc main_arg2) i := by
  refine Eq.trans ?_ (congrFun (V_main_arg2 m c) i)
  show V m c main_arg2 (((cfg0.win 2).blk t).view.emb y) = V m c main_arg2 i
  refine congrArg (V m c main_arg2) ?_
  obtain ⟨e0, e1, -, -⟩ := idx_facts24 t
  funext a; apply Fin.ext
  match a with
  | ⟨0, _⟩ => show win0_2.index t (0 : Fin 2) * 128 + 1 * (y 0).val = (i 0).val; rw [e0, h0]; omega
  | ⟨1, _⟩ => show win0_2.index t (1 : Fin 2) * 64 + 1 * (y 1).val = (i 1).val; rw [e1, h1]; omega

theorem w1_read (c : Dev nD) (t : Fin cfg0.N) (a : Fin 128) (b : Fin 64) :
    iblk m c 2 t (ix2 a b) = m ((c : Thread nD τ).loc main_arg2) (ix2 a b) :=
  w1_blk m c t (ix2 a b) (ix2 a b) rfl rfl

/-- The second weight matrix's block is the whole matrix. -/
theorem wg_blk (c : Dev nD) (t : Fin cfg0.N) (y : ((cfg0.win 4).xblock (cfg0.grid.coords t)).Idx) (i : S64x16.Idx)
    (h0 : (i 0).val = (y 0).val) (h1 : (i 1).val = (y 1).val) :
    iblk m c 4 t y = m ((c : Thread nD τ).loc main_arg4) i := by
  refine Eq.trans ?_ (congrFun (V_main_arg4 m c) i)
  show V m c main_arg4 (((cfg0.win 4).blk t).view.emb y) = V m c main_arg4 i
  refine congrArg (V m c main_arg4) ?_
  obtain ⟨-, -, e0, e1⟩ := idx_facts24 t
  funext a; apply Fin.ext
  match a with
  | ⟨0, _⟩ => show win0_4.index t (0 : Fin 2) * 64 + 1 * (y 0).val = (i 0).val; rw [e0, h0]; omega
  | ⟨1, _⟩ => show win0_4.index t (1 : Fin 2) * 16 + 1 * (y 1).val = (i 1).val; rw [e1, h1]; omega

theorem wg_read (c : Dev nD) (t : Fin cfg0.N) (a : Fin 64) (b : Fin 16) :
    iblk m c 4 t (ix2 a b) = m ((c : Thread nD τ).loc main_arg4) (ix2 a b) :=
  wg_blk m c t (ix2 a b) (ix2 a b) rfl rfl

/-! ## The two windows whose last chunk reaches past the array -/

/-- Where a transfer moves the block's entry j, the filled block holds the transferred part at j. -/
theorem fill_moved {G : Pipeline.Grid} (w : Pipeline.Window sig G) {α : Type} (i : G.Coords) (d : w.block.Idx → α)
    (g : (w.xblock i).Idx → α) (j : w.block.Idx) (h : w.moved i j = true) :
    w.fill i d g j = g (fun a => ⟨(j a).val, (w.moved_iff i j).mp h a⟩) := by
  unfold Pipeline.Window.fill; exact dif_pos h

/-- The connectivity window at point t: block index (t / 5, t % 5); all 2000 rows of the strip are inside the
    array; of the 2048 columns of the chunk, all on chunks 0..3 and the first 10000 - 4 · 2048 = 1808 on chunk 4. -/
theorem idx_facts1 : ∀ t : Fin cfg0.N, win0_1.index t (0 : Fin 2) = t.val / 5 ∧ win0_1.index t (1 : Fin 2) = t.val % 5
    ∧ win0_1.xsize (grid0.coords t) (0 : Fin 2) = 2000
    ∧ win0_1.xsize (grid0.coords t) (1 : Fin 2) = (if t.val % 5 = 4 then 1808 else 2048) :=
  (by decide +kernel : ∀ t : Fin grid0.N, _)

/-- The feature window at point t: block index (t % 5, 0); of the 2048 rows of the chunk, all on chunks 0..3
    and the first 1808 on chunk 4; all 128 columns. -/
theorem idx_facts0 : ∀ t : Fin cfg0.N, win0_0.index t (0 : Fin 2) = t.val % 5 ∧ win0_0.index t (1 : Fin 2) = 0
    ∧ win0_0.xsize (grid0.coords t) (0 : Fin 2) = (if t.val % 5 = 4 then 1808 else 2048)
    ∧ win0_0.xsize (grid0.coords t) (1 : Fin 2) = 128 :=
  (by decide +kernel : ∀ t : Fin grid0.N, _)

/-- An entry of the connectivity block's part inside the array is the matrix entry at
    (2000 · strip + row, 2048 · chunk + column). -/
theorem conn_blk (c : Dev nD) (t : Fin cfg0.N) (y : ((cfg0.win 1).xblock (cfg0.grid.coords t)).Idx) (i : S10000x10000.Idx)
    (h0 : (i 0).val = 2000 * (t.val / 5) + (y 0).val) (h1 : (i 1).val = 2048 * (t.val % 5) + (y 1).val) :
    iblk m c 1 t y = m ((c : Thread nD τ).loc main_arg1) i := by
  refine Eq.trans ?_ (congrFun (V_main_arg1 m c) i)
  show V m c main_arg1 (((cfg0.win 1).blk t).view.emb y) = V m c main_arg1 i
  refine congrArg (V m c main_arg1) ?_
  obtain ⟨e0, e1, -, -⟩ := idx_facts1 t
  funext a; apply Fin.ext
  match a with
  | ⟨0, _⟩ => show win0_1.index t (0 : Fin 2) * 2000 + 1 * (y 0).val = (i 0).val; rw [e0, h0]; omega
  | ⟨1, _⟩ => show win0_1.index t (1 : Fin 2) * 2048 + 1 * (y 1).val = (i 1).val; rw [e1, h1]; omega

/-- An entry of the feature block's part inside the array is the feature entry at (2048 · chunk + row, column). -/
theorem x_blk (c : Dev nD) (t : Fin cfg0.N) (y : ((cfg0.win 0).xblock (cfg0.grid.coords t)).Idx) (i : S10000x128.Idx)
    (h0 : (i 0).val = 2048 * (t.val % 5) + (y 0).val) (h1 : (i 1).val = (y 1).val) :
    iblk m c 0 t y = m ((c : Thread nD τ).loc main_arg0) i := by
  refine Eq.trans ?_ (congrFun (V_main_arg0 m c) i)
  show V m c main_arg0 (((cfg0.win 0).blk t).view.emb y) = V m c main_arg0 i
  refine congrArg (V m c main_arg0) ?_
  obtain ⟨e0, e1, -, -⟩ := idx_facts0 t
  funext a; apply Fin.ext
  match a with
  | ⟨0, _⟩ => show win0_0.index t (0 : Fin 2) * 2048 + 1 * (y 0).val = (i 0).val; rw [e0, h0]; omega
  | ⟨1, _⟩ => show win0_0.index t (1 : Fin 2) * 128 + 1 * (y 1).val = (i 1).val; rw [e1, h1]; omega

/-- A column of the chunk that is inside the array is moved by the transfer. -/
theorem conn_moved (t : Fin cfg0.N) (r : Fin 2000) (cc : Fin 2048) (h : 2048 * (t.val % 5) + cc.val < 10000) :
    win0_1.moved (grid0.coords t) (ix2 r cc) = true := by
  obtain ⟨-, -, s0, s1⟩ := idx_facts1 t
  refine (win0_1.moved_iff _ _).mpr fun a => ?_
  match a with
  | ⟨0, _⟩ => show r.val < win0_1.xsize (grid0.coords t) (0 : Fin 2); rw [s0]; exact r.isLt
  | ⟨1, _⟩ =>
    show cc.val < win0_1.xsize (grid0.coords t) (1 : Fin 2)
    rw [s1]; have := cc.isLt; split <;> omega

/-- A row of the chunk that is inside the array is moved by the transfer. -/
theorem x_moved (t : Fin cfg0.N) (r : Fin 2048) (dd : Fin 128) (h : 2048 * (t.val % 5) + r.val < 10000) :
    win0_0.moved (grid0.coords t) (ix2 r dd) = true := by
  obtain ⟨-, -, s0, s1⟩ := idx_facts0 t
  refine (win0_0.moved_iff _ _).mpr fun a => ?_
  match a with
  | ⟨0, _⟩ =>
    show r.val < win0_0.xsize (grid0.coords t) (0 : Fin 2)
    rw [s0]; have := r.isLt; split <;> omega
  | ⟨1, _⟩ => show dd.val < win0_0.xsize (grid0.coords t) (1 : Fin 2); rw [s1]; exact dd.isLt

/-- The strip's row inside the array. -/
theorem strip_row_lt (t : Fin cfg0.N) (r : Fin 2000) : 2000 * (t.val / 5) + r.val < 10000 := by
  have ht : t.val < 25 := N_0 ▸ t.isLt
  have := r.isLt
  omega

/-- What the body finds in the connectivity window's buffer, at a column inside the array: the matrix entry,
    whatever stood in the buffer before the fetch. -/
theorem conn_read (c : Dev nD) (t : Fin cfg0.N) (d) (r : Fin 2000) (cc : Fin 2048)
    (h : 2048 * (t.val % 5) + cc.val < 10000) :
    win0_1.fill (grid0.coords t) d (iblk m c 1 t) (ix2 r cc)
      = m ((c : Thread nD τ).loc main_arg1) (ix2 ⟨2000 * (t.val / 5) + r.val, strip_row_lt t r⟩ ⟨2048 * (t.val % 5) + cc.val, h⟩) := by
  refine (fill_moved win0_1 (grid0.coords t) d (iblk m c 1 t) (ix2 r cc) (conn_moved t r cc h)).trans ?_
  exact conn_blk m c t _ _ rfl rfl

/-- What the body finds in the feature window's buffer, at a row inside the array: the feature entry. -/
theorem x_read (c : Dev nD) (t : Fin cfg0.N) (d) (r : Fin 2048) (dd : Fin 128)
    (h : 2048 * (t.val % 5) + r.val < 10000) :
    win0_0.fill (grid0.coords t) d (iblk m c 0 t) (ix2 r dd)
      = m ((c : Thread nD τ).loc main_arg0) (ix2 ⟨2048 * (t.val % 5) + r.val, h⟩ dd) := by
  refine (fill_moved win0_0 (grid0.coords t) d (iblk m c 0 t) (ix2 r dd) (x_moved t r dd h)).trans ?_
  exact x_blk m c t _ _ rfl rfl

/-! ## The two bias rows: a vector laid out as a one-row matrix before the region -/

/-- The two bias windows sit at block index (0, 0) at every grid point. -/
theorem idx_facts35 : ∀ t : Fin cfg0.N, win0_3.index t (0 : Fin 2) = 0 ∧ win0_3.index t (1 : Fin 2) = 0
    ∧ win0_5.index t (0 : Fin 2) = 0 ∧ win0_5.index t (1 : Fin 2) = 0 :=
  (by decide +kernel : ∀ t : Fin grid0.N, _)

/-- The array the hidden-bias window stages is the hidden bias laid out as one row of 64. -/
theorem v0_eq (c : Dev nD) :
    (V m c main_v0 : S1x64.Idx → Elt F .f32) = shapeCast S1x64 (m ((c : Thread nD τ).loc main_arg3)) shapeCasts_S64_S1x64 := by
  dsimp only [Gen.V, Gen.hostOps0]; after_results; rfl

/-- The array the output-bias window stages is the output bias laid out as one row of 16. -/
theorem v1_eq (c : Dev nD) :
    (V m c main_v1 : S1x16.Idx → Elt F .f32) = shapeCast S1x16 (m ((c : Thread nD τ).loc main_arg5)) shapeCasts_S16_S1x16 := by
  dsimp only [Gen.V, Gen.hostOps0]; after_results; rfl

/-- The hidden-bias block is the whole one-row array. -/
theorem b1_blk (c : Dev nD) (t : Fin cfg0.N) (y : ((cfg0.win 3).xblock (cfg0.grid.coords t)).Idx) (i : S1x64.Idx)
    (h0 : (i 0).val = (y 0).val) (h1 : (i 1).val = (y 1).val) :
    iblk m c 3 t y = V m c main_v0 i := by
  show V m c main_v0 (((cfg0.win 3).blk t).view.emb y) = V m c main_v0 i
  refine congrArg (V m c main_v0) ?_
  obtain ⟨e0, e1, -, -⟩ := idx_facts35 t
  funext a; apply Fin.ext
  match a with
  | ⟨0, _⟩ => show win0_3.index t (0 : Fin 2) * 1 + 1 * (y 0).val = (i 0).val; rw [e0, h0]; omega
  | ⟨1, _⟩ => show win0_3.index t (1 : Fin 2) * 64 + 1 * (y 1).val = (i 1).val; rw [e1, h1]; omega

/-- The output-bias block is the whole one-row array. -/
theorem bg_blk (c : Dev nD) (t : Fin cfg0.N) (y : ((cfg0.win 5).xblock (cfg0.grid.coords t)).Idx) (i : S1x16.Idx)
    (h0 : (i 0).val = (y 0).val) (h1 : (i 1).val = (y 1).val) :
    iblk m c 5 t y = V m c main_v1 i := by
  show V m c main_v1 (((cfg0.win 5).blk t).view.emb y) = V m c main_v1 i
  refine congrArg (V m c main_v1) ?_
  obtain ⟨-, -, e0, e1⟩ := idx_facts35 t
  funext a; apply Fin.ext
  match a with
  | ⟨0, _⟩ => show win0_5.index t (0 : Fin 2) * 1 + 1 * (y 0).val = (i 0).val; rw [e0, h0]; omega
  | ⟨1, _⟩ => show win0_5.index t (1 : Fin 2) * 16 + 1 * (y 1).val = (i 1).val; rw [e1, h1]; omega

/-- The hidden-bias block at (0, h) is the hidden bias at h. -/
theorem b1_read (c : Dev nD) (t : Fin cfg0.N) (h : Fin 64) :
    iblk m c 3 t (ix2 (0 : Fin 1) h) = m ((c : Thread nD τ).loc main_arg3) (ix1 h) :=
  (b1_blk m c t (ix2 (0 : Fin 1) h) (ix2 (0 : Fin 1) h) rfl rfl).trans
    ((congrFun (v0_eq m c) (ix2 (0 : Fin 1) h)).trans
      (shapeCast_a_1a_apply (m ((c : Thread nD τ).loc main_arg3)) shapeCasts_S64_S1x64 (0 : Fin 1) h))

/-- The output-bias block at (0, j) is the output bias at j. -/
theorem bg_read (c : Dev nD) (t : Fin cfg0.N) (j : Fin 16) :
    iblk m c 5 t (ix2 (0 : Fin 1) j) = m ((c : Thread nD τ).loc main_arg5) (ix1 j) :=
  (bg_blk m c t (ix2 (0 : Fin 1) j) (ix2 (0 : Fin 1) j) rfl rfl).trans
    ((congrFun (v1_eq m c) (ix2 (0 : Fin 1) j)).trans
      (shapeCast_a_1a_apply (m ((c : Thread nD τ).loc main_arg5)) shapeCasts_S16_S1x16 (0 : Fin 1) j))

end Cert.KernelIdeal.BlockReads

end
-- ==== Proof.FoundBuffers.lean ====
/-
  What the tiled program's body finds in the feature window, the connectivity window and the output window
  at each grid point, for any bookkeeping of the run whose arrays are the arrays as the region finds them.

  The two input windows are transferred anew at every one of the 25 points, so each holds its block's part
  inside the array and, elsewhere, whatever stood there before. The output window is never transferred in.
  It is written back to the array exactly at the points t ≡ 4 (mod 5), the last chunk of each row strip.
  So at the first chunk of a strip (t ≡ 0 mod 5: the very first point, or the point after a write-back) it
  holds nothing the program names; at every other point it holds what the body left there one point earlier
  — all of it, because 5 · 2000 = 10000 and no output block reaches past the array.
-/
import proofs.«122200_g63917703299193_cont_sun_m_350_28_alg».proof.Proof.Gen.KernelIdeal.Frame

noncomputable section

namespace Cert.KernelIdeal.FoundBuffers

open Cert.KernelIdeal Cert.KernelIdeal.Gen Idealize.ShloMosaic Idealize.ShloMosaic.TcCoe
open Idealize.SL Idealize.SL.RA Idealize.SL.Sem
open Idealize.ShloMosaic.Rounds
open Idealize.ShloMosaic.Pipeline (Dat Cfg Window)

variable {F : FTy → Type} [FloatOps F]
variable (m : (ℓ : Loc nD τ sig) → Buf (Elt F) ℓ)

/-- The feature window at point t: its block's part inside the array, and d elsewhere. -/
theorem found_x {c : Dev nD} (dat : Dat τ (Elt F) Unit ℕ (UR sig nD τ) ℕ cfg0 c)
    (hA : dat.A 0 = V m c (Pipeline.arrRef spec0 0)) (t : Fin cfg0.N) (d) :
    dat.before 0 t d = win0_0.fill (grid0.coords t) d (iblk m c 0 t) := by
  rw [dat.before_fetched 0 t (fetch0_0 t) d]
  unfold Dat.fetched Dat.blockOf iblk
  rw [hA]

/-- The connectivity window at point t: its block's part inside the array, and d elsewhere. -/
theorem found_conn {c : Dev nD} (dat : Dat τ (Elt F) Unit ℕ (UR sig nD τ) ℕ cfg0 c)
    (hA : dat.A 1 = V m c (Pipeline.arrRef spec0 1)) (t : Fin cfg0.N) (d) :
    dat.before 1 t d = win0_1.fill (grid0.coords t) d (iblk m c 1 t) := by
  rw [dat.before_fetched 1 t (fetch0_1 t) d]
  unfold Dat.fetched Dat.blockOf iblk
  rw [hA]

/-- At every setting of the grid's coordinates the body stores into the output window: the chunk is the first,
    the last, or one in between. -/
theorem live6 : ∀ i : grid0.Coords, cfg0.idle 6 i = false := by decide +kernel

/-- At the first chunk of a strip the output window holds nothing the program names. -/
theorem found_out_start {c : Dev nD} (dat : Dat τ (Elt F) Unit ℕ (UR sig nD τ) ℕ cfg0 c)
    (t : Fin cfg0.N) (h : t.val % 5 = 0) (d) : dat.before 6 t d = d := by
  refine dat.before_out_reset 6 rfl t ?_ d
  by_cases h0 : t.val = 0
  · exact .inl h0
  · exact .inr ⟨h0, (flush0_6 _).mpr (by show (t.val - 1) % 5 = 4; omega)⟩

/-- At a later chunk of a strip the output window holds what the body left one point earlier. -/
theorem found_out_next {c : Dev nD} (dat : Dat τ (Elt F) Unit ℕ (UR sig nD τ) ℕ cfg0 c)
    (t : Fin cfg0.N) (h : t.val % 5 ≠ 0) (d) :
    dat.before 6 t d = dat.after 6 ⟨t.val - 1, by have := t.isLt; omega⟩ := by
  have ht : t.val ≠ 0 := fun h0 => h (by rw [h0])
  refine dat.before_out_kept 6 rfl t ht ?_ live6 (fun _ _ => rfl) d
  refine Bool.eq_false_iff.mpr fun hf => ?_
  have h4 : (t.val - 1) % 5 = 4 := (flush0_6 _).mp hf
  omega

end Cert.KernelIdeal.FoundBuffers

end
-- ==== Proof.OutCover.lean ====
/-
  The result array after the run, from what each write-back leaves.

  The result's window cuts the [10000, 16] array into five strips of 2000 rows; 5 · 2000 = 10000, so no strip
  reaches past the array. Grid point t = 5 i + k (strip i, chunk k) writes strip i back when k = 4. Row R of
  the array lies in strip R / 2000 at row R mod 2000, so the point 5 (R / 2000) + 4 covers it. If at each
  write-back point the strip's buffer holds the strip's rows of ONE function G on the whole array, the
  array ends equal to G: every index is covered, and points that cover the same index write the same value.
-/
import proofs.«122200_g63917703299193_cont_sun_m_350_28_alg».proof.Proof.Gen.KernelIdeal.Frame
import Idealize.ShloMosaic.Lib.ValueIdx
import Idealize.ShloMosaic.Lib.Pipeline.Value

set_option maxRecDepth 16384

noncomputable section

namespace Cert.KernelIdeal.OutCover

open Idealize.ShloMosaic Idealize.ShloMosaic.TcCoe Idealize.ShloMosaic.ValueIdx Idealize.SL.Sem
open Cert.KernelIdeal Cert.KernelIdeal.Gen
open Idealize.ShloMosaic.Pipeline (Dat)

variable {F : FTy → Type} [FloatOps F]

/-- The result window's block index at a grid point: the strip number on the rows, zero on the columns. -/
theorem strip_index : ∀ t : Fin cfg0.N, win0_6.index t (0 : Fin 2) = t.val / 5 ∧ win0_6.index t (1 : Fin 2) = 0 :=
  (by decide +kernel : ∀ t : Fin grid0.N, win0_6.index t (0 : Fin 2) = t.val / 5 ∧ win0_6.index t (1 : Fin 2) = 0)

/-- What a write-back point writes is its strip of `G`: the strip is not cut, its element (r, j) sits in the
    array at row 2000 · (strip number) + r and column j, and there the buffer holds `G`. -/
theorem flushed_strip {c : Dev nD} (dat : Dat τ (Elt F) Unit ℕ (UR sig nD τ) ℕ cfg0 c) (G : S10000x16.Idx → Elt F .f32)
    (hG : ∀ t : Fin cfg0.N, t.val % 5 = 4 → ∀ (r : Fin 2000) (j : Fin 16),
      dat.after 6 t (ix2 r j) = G (ix2 ⟨2000 * (t.val / 5) + r.val, by
        have := t.isLt; have := r.isLt; have h25 : cfg0.N = 25 := N_0; omega⟩ j))
    (t : Fin cfg0.N) (hf : (cfg0.win 6).flush t = true) :
    dat.flushed 6 t = ((cfg0.win 6).blk t).view.read (Elt F) G := by
  have ht : t.val % 5 = 4 := (flush0_6 t).mp hf
  obtain ⟨e0, e1⟩ := strip_index t
  funext y
  have h0 : (y 0).val < 2000 := (y 0).isLt
  have h1 : (y 1).val < 16 := (y 1).isLt
  have ey : (cfg0.win 6).xinj (grid0.coords t) y = ix2 (⟨(y 0).val, h0⟩ : Fin 2000) (⟨(y 1).val, h1⟩ : Fin 16) :=
    funext fun a => by match a with | ⟨0, _⟩ => rfl | ⟨1, _⟩ => rfl
  show dat.after 6 t ((cfg0.win 6).xinj (grid0.coords t) y) = G (((cfg0.win 6).blk t).view.emb y)
  refine (congrArg (dat.after 6 t) ey).trans ((hG t ht ⟨(y 0).val, h0⟩ ⟨(y 1).val, h1⟩).trans (congrArg G ?_))
  funext a
  apply Fin.ext
  match a with
  | ⟨0, _⟩ =>
    show 2000 * (t.val / 5) + (y 0).val = win0_6.index t (0 : Fin 2) * 2000 + 1 * (y 0).val
    omega
  | ⟨1, _⟩ =>
    show (y 1).val = win0_6.index t (1 : Fin 2) * 16 + 1 * (y 1).val
    omega

/-- An array index lies in point `t`'s strip exactly when each coordinate is in the strip's range on its axis. -/
theorem mem_strip (t : Fin cfg0.N) (i : S10000x16.Idx) :
    i ∈ ((cfg0.win 6).blk t).view.set ↔
      ∀ a : Fin 2, win0_6.index t a * S2000x16.size a ≤ (i a).val
        ∧ (i a).val < win0_6.index t a * S2000x16.size a + S2000x16.size a := by
  show i ∈ ((View.whole main_v2).slice (win0_6.rect t)).set ↔ _
  rw [View.set_slice_whole, Rect.mem_set_unit]
  exact Iff.rfl

/-- Every index of the array is in the strip of a point that writes back: row R in that of point 5 (R / 2000) + 4. -/
theorem covered (i : S10000x16.Idx) :
    ∃ t : Fin cfg0.N, (cfg0.win 6).flush t = true ∧ i ∈ ((cfg0.win 6).blk t).view.set := by
  have hR : (i 0).val < 10000 := (i 0).isLt
  have hC : (i 1).val < 16 := (i 1).isLt
  have h25 : cfg0.N = 25 := N_0
  let t : Fin cfg0.N := ⟨5 * ((i 0).val / 2000) + 4, by omega⟩
  have htv : t.val = 5 * ((i 0).val / 2000) + 4 := rfl
  obtain ⟨e0, e1⟩ := strip_index t
  refine ⟨t, (flush0_6 t).mpr (by omega), ?_⟩
  rw [mem_strip]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 16 ≤ (i 1).val ∧ (i 1).val < win0_6.index t (1 : Fin 2) * 16 + 16
    omega

/-- THE RESULT ARRAY after the run is `G`, whenever each write-back point's buffer holds its strip of `G`. -/
theorem arr_out_eq {c : Dev nD} (dat : Dat τ (Elt F) Unit ℕ (UR sig nD τ) ℕ cfg0 c) (G : S10000x16.Idx → Elt F .f32)
    (hG : ∀ t : Fin cfg0.N, t.val % 5 = 4 → ∀ (r : Fin 2000) (j : Fin 16),
      dat.after 6 t (ix2 r j) = G (ix2 ⟨2000 * (t.val / 5) + r.val, by
        have := t.isLt; have := r.isLt; have h25 : cfg0.N = 25 := N_0; omega⟩ j)) :
    dat.arrAt 6 cfg0.N = G :=
  dat.arrAt_eq_of_cover 6 G (fun t hf => flushed_strip dat G hG t hf) covered

end Cert.KernelIdeal.OutCover

end
-- ==== Proof.PayloadIdeal.lean ====
/-
  The four values the tiled program stores, each read at one index, on the extended reals.

  A block product into the zero accumulator, read at (r, j), is the finite sum Σ_k A (r, k) · B (k, j): the
  contraction has one axis, so its index set is Fin K through one bijection, and the operand indices at a
  contraction position k are (r, k) and (k, j). The other operations are pointwise, or copy one row to every
  row. The two masks compare a row or column number below 2048 with 10000 − 2048 k for a chunk number k ≤ 4:
  nothing wraps in 32 bits and both sides are nonnegative, so the signed comparison of the words is the
  comparison of the natural numbers.
-/
import proofs.«122200_g63917703299193_cont_sun_m_350_28_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

noncomputable section

open scoped BigOperators

namespace Cert.KernelIdeal.PayValue

open Idealize.ShloMosaic Idealize.ShloMosaic.ValueIdx Cert.KernelIdeal Cert.KernelIdeal.Gen

/-! ## A block product into zero, read at an index

One statement per pair of block shapes the program multiplies. The contraction index of each has one axis;
through its bijection with Fin K the sum runs over k : Fin K, and the operands are read at (r, k) and (k, j). -/

/-- The operand indices of that product at a contraction position, coordinate by coordinate. -/
theorem matmul_chunk_apply_lhs0 (i : S2000x16.Idx) (q : dot_S2000x2048_S2048x16_S2000x16_1_0_0_1_n_n.contr.Idx) : (dot_S2000x2048_S2048x16_S2000x16_1_0_0_1_n_n.lhsIdx i q 0).val = (i 0).val := by
  unfold DotDims.lhsIdx
  rw [dif_neg (show ¬(0 : Fin S2000x2048.rank) ∈ dot_S2000x2048_S2048x16_S2000x16_1_0_0_1_n_n.lhsBatch by decide),
    dif_pos (show (0 : Fin S2000x2048.rank) ∈ dot_S2000x2048_S2048x16_S2000x16_1_0_0_1_n_n.lhsNonContracting by decide)]
  rfl
theorem matmul_chunk_apply_lhs1 (i : S2000x16.Idx) (q : dot_S2000x2048_S2048x16_S2000x16_1_0_0_1_n_n.contr.Idx) :
    (dot_S2000x2048_S2048x16_S2000x16_1_0_0_1_n_n.lhsIdx i q 1).val = (q ⟨0, by decide⟩).val :=
  dot_S2000x2048_S2048x16_S2000x16_1_0_0_1_n_n.lhsIdx_val_of_single rfl i q
theorem matmul_chunk_apply_rhs0 (i : S2000x16.Idx) (q : dot_S2000x2048_S2048x16_S2000x16_1_0_0_1_n_n.contr.Idx) :
    (dot_S2000x2048_S2048x16_S2000x16_1_0_0_1_n_n.rhsIdx i q 0).val = (q ⟨0, by decide⟩).val :=
  dot_S2000x2048_S2048x16_S2000x16_1_0_0_1_n_n.rhsIdx_val_of_single rfl i q
theorem matmul_chunk_apply_rhs1 (i : S2000x16.Idx) (q : dot_S2000x2048_S2048x16_S2000x16_1_0_0_1_n_n.contr.Idx) : (dot_S2000x2048_S2048x16_S2000x16_1_0_0_1_n_n.rhsIdx i q 1).val = (i 1).val := by
  unfold DotDims.rhsIdx
  rw [dif_neg (show ¬(1 : Fin S2048x16.rank) ∈ dot_S2000x2048_S2048x16_S2000x16_1_0_0_1_n_n.rhsBatch by decide),
    dif_pos (show (1 : Fin S2048x16.rank) ∈ dot_S2000x2048_S2048x16_S2000x16_1_0_0_1_n_n.rhsNonContracting by decide)]
  rfl

/-- A [2000, 2048] block against a [2048, 16] block, into zero, at (r, j): the sum over the 2048 columns. -/
theorem matmul_chunk_apply (A : FVec Ideal S2000x2048 .f32) (B : FVec Ideal S2048x16 .f32) (r : Fin 2000) (j : Fin 16) :
    matmul dot_S2000x2048_S2048x16_S2000x16_1_0_0_1_n_n none A B (constant (F := Ideal) S2000x16 .f32 0x00000000#32) (ix2 r j)
      = ∑ k : Fin 2048, A (ix2 r k) * B (ix2 k j) := by
  simp only [matmul]
  rw [Ideal.matmul_constant_zero_apply, ← Equiv.sum_comp (contrEquiv1 dot_S2000x2048_S2048x16_S2000x16_1_0_0_1_n_n 2048 rfl rfl).symm]
  refine Finset.sum_congr rfl fun k _ => ?_
  have hk := contrEquiv1_symm_val dot_S2000x2048_S2048x16_S2000x16_1_0_0_1_n_n 2048 rfl rfl k
  have el : dot_S2000x2048_S2048x16_S2000x16_1_0_0_1_n_n.lhsIdx (ix2 r j) ((contrEquiv1 dot_S2000x2048_S2048x16_S2000x16_1_0_0_1_n_n 2048 rfl rfl).symm k) = ix2 r k :=
    funext fun a => Fin.ext (by
      match a with
      | ⟨0, _⟩ => exact matmul_chunk_apply_lhs0 _ _
      | ⟨1, _⟩ => exact (matmul_chunk_apply_lhs1 _ _).trans hk)
  have er : dot_S2000x2048_S2048x16_S2000x16_1_0_0_1_n_n.rhsIdx (ix2 r j) ((contrEquiv1 dot_S2000x2048_S2048x16_S2000x16_1_0_0_1_n_n 2048 rfl rfl).symm k) = ix2 k j :=
    funext fun a => Fin.ext (by
      match a with
      | ⟨0, _⟩ => exact (matmul_chunk_apply_rhs0 _ _).trans hk
      | ⟨1, _⟩ => exact matmul_chunk_apply_rhs1 _ _)
  rw [el, er]

/-- The operand indices of that product at a contraction position, coordinate by coordinate. -/
theorem matmul_in_apply_lhs0 (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide),
    dif_pos (show (0 : Fin S2048x128.rank) ∈ dot_S2048x128_S128x64_S2048x64_1_0_0_1_n_n.lhsNonContracting by decide)]
  rfl
theorem matmul_in_apply_lhs1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem matmul_in_apply_rhs0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem matmul_in_apply_rhs1 (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide),
    dif_pos (show (1 : Fin S128x64.rank) ∈ dot_S2048x128_S128x64_S2048x64_1_0_0_1_n_n.rhsNonContracting by decide)]
  rfl

/-- A [2048, 128] block of inputs against the [128, 64] weights, into zero, at (r, h): the sum over the 128 features. -/
theorem matmul_in_apply (A : FVec Ideal S2048x128 .f32) (B : FVec Ideal S128x64 .f32) (r : Fin 2048) (j : Fin 64) :
    matmul dot_S2048x128_S128x64_S2048x64_1_0_0_1_n_n none A B (constant (F := Ideal) S2048x64 .f32 0x00000000#32) (ix2 r j)
      = ∑ k : Fin 128, A (ix2 r k) * B (ix2 k j) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 r j) ((contrEquiv1 dot_S2048x128_S128x64_S2048x64_1_0_0_1_n_n 128 rfl rfl).symm k) = ix2 r k :=
    funext fun a => Fin.ext (by
      match a with
      | ⟨0, _⟩ => exact matmul_in_apply_lhs0 _ _
      | ⟨1, _⟩ => exact (matmul_in_apply_lhs1 _ _).trans hk)
  have er : dot_S2048x128_S128x64_S2048x64_1_0_0_1_n_n.rhsIdx (ix2 r j) ((contrEquiv1 dot_S2048x128_S128x64_S2048x64_1_0_0_1_n_n 128 rfl rfl).symm k) = ix2 k j :=
    funext fun a => Fin.ext (by
      match a with
      | ⟨0, _⟩ => exact (matmul_in_apply_rhs0 _ _).trans hk
      | ⟨1, _⟩ => exact matmul_in_apply_rhs1 _ _)
  rw [el, er]

/-- The operand indices of that product at a contraction position, coordinate by coordinate. -/
theorem matmul_hidden_apply_lhs0 (i : S2048x16.Idx) (q : dot_S2048x64_S64x16_S2048x16_1_0_0_1_n_n.contr.Idx) : (dot_S2048x64_S64x16_S2048x16_1_0_0_1_n_n.lhsIdx i q 0).val = (i 0).val := by
  unfold DotDims.lhsIdx
  rw [dif_neg (show ¬(0 : Fin S2048x64.rank) ∈ dot_S2048x64_S64x16_S2048x16_1_0_0_1_n_n.lhsBatch by decide),
    dif_pos (show (0 : Fin S2048x64.rank) ∈ dot_S2048x64_S64x16_S2048x16_1_0_0_1_n_n.lhsNonContracting by decide)]
  rfl
theorem matmul_hidden_apply_lhs1 (i : S2048x16.Idx) (q : dot_S2048x64_S64x16_S2048x16_1_0_0_1_n_n.contr.Idx) :
    (dot_S2048x64_S64x16_S2048x16_1_0_0_1_n_n.lhsIdx i q 1).val = (q ⟨0, by decide⟩).val :=
  dot_S2048x64_S64x16_S2048x16_1_0_0_1_n_n.lhsIdx_val_of_single rfl i q
theorem matmul_hidden_apply_rhs0 (i : S2048x16.Idx) (q : dot_S2048x64_S64x16_S2048x16_1_0_0_1_n_n.contr.Idx) :
    (dot_S2048x64_S64x16_S2048x16_1_0_0_1_n_n.rhsIdx i q 0).val = (q ⟨0, by decide⟩).val :=
  dot_S2048x64_S64x16_S2048x16_1_0_0_1_n_n.rhsIdx_val_of_single rfl i q
theorem matmul_hidden_apply_rhs1 (i : S2048x16.Idx) (q : dot_S2048x64_S64x16_S2048x16_1_0_0_1_n_n.contr.Idx) : (dot_S2048x64_S64x16_S2048x16_1_0_0_1_n_n.rhsIdx i q 1).val = (i 1).val := by
  unfold DotDims.rhsIdx
  rw [dif_neg (show ¬(1 : Fin S64x16.rank) ∈ dot_S2048x64_S64x16_S2048x16_1_0_0_1_n_n.rhsBatch by decide),
    dif_pos (show (1 : Fin S64x16.rank) ∈ dot_S2048x64_S64x16_S2048x16_1_0_0_1_n_n.rhsNonContracting by decide)]
  rfl

/-- A [2048, 64] block of hidden units against the [64, 16] weights, into zero, at (r, j): the sum over the 64 units. -/
theorem matmul_hidden_apply (A : FVec Ideal S2048x64 .f32) (B : FVec Ideal S64x16 .f32) (r : Fin 2048) (j : Fin 16) :
    matmul dot_S2048x64_S64x16_S2048x16_1_0_0_1_n_n none A B (constant (F := Ideal) S2048x16 .f32 0x00000000#32) (ix2 r j)
      = ∑ k : Fin 64, A (ix2 r k) * B (ix2 k j) := by
  simp only [matmul]
  rw [Ideal.matmul_constant_zero_apply, ← Equiv.sum_comp (contrEquiv1 dot_S2048x64_S64x16_S2048x16_1_0_0_1_n_n 64 rfl rfl).symm]
  refine Finset.sum_congr rfl fun k _ => ?_
  have hk := contrEquiv1_symm_val dot_S2048x64_S64x16_S2048x16_1_0_0_1_n_n 64 rfl rfl k
  have el : dot_S2048x64_S64x16_S2048x16_1_0_0_1_n_n.lhsIdx (ix2 r j) ((contrEquiv1 dot_S2048x64_S64x16_S2048x16_1_0_0_1_n_n 64 rfl rfl).symm k) = ix2 r k :=
    funext fun a => Fin.ext (by
      match a with
      | ⟨0, _⟩ => exact matmul_hidden_apply_lhs0 _ _
      | ⟨1, _⟩ => exact (matmul_hidden_apply_lhs1 _ _).trans hk)
  have er : dot_S2048x64_S64x16_S2048x16_1_0_0_1_n_n.rhsIdx (ix2 r j) ((contrEquiv1 dot_S2048x64_S64x16_S2048x16_1_0_0_1_n_n 64 rfl rfl).symm k) = ix2 k j :=
    funext fun a => Fin.ext (by
      match a with
      | ⟨0, _⟩ => exact (matmul_hidden_apply_rhs0 _ _).trans hk
      | ⟨1, _⟩ => exact matmul_hidden_apply_rhs1 _ _)
  rw [el, er]

/-! ## The two masks

A row or column number c below 2048 is compared, signed, with the word 10000 − 2048 k, where k ≤ 4 is the
chunk number. For those k the product and the difference stay below 2³¹, so the word is the natural number
10000 − 2048 k, both sides read signed as themselves, and the bit says c < 10000 − 2048 k. -/

/-- The bound the masks compare with, as a word, is the natural number it looks like. -/
theorem bound_word (k : Nat) (hk : k < 5) :
    Scalar.subi 10000#32 (Scalar.muli (BitVec.ofNat 32 k) 2048#32) = BitVec.ofNat 32 (10000 - 2048 * k) := by
  interval_cases k <;> rfl

/-- The comparison's bit is one exactly when the number is below the bound. -/
theorem mask_bit (k c : Nat) (hk : k < 5) (hc : c < 2048) :
    IntOp.cmpi .slt (BitVec.ofNat 32 c) (Scalar.subi 10000#32 (Scalar.muli (BitVec.ofNat 32 k) 2048#32)) = 1#1
      ↔ c < 10000 - 2048 * k := by
  rw [bound_word k hk, IntOp.cmpi_slt, WordArith.toInt_ofNat_small c (by omega),
    WordArith.toInt_ofNat_small (10000 - 2048 * k) (by omega)]
  exact Int.ofNat_lt

/-- A select on that bit is the `if` on the numbers. -/
theorem select_mask {α : Type} (k c : Nat) (hk : k < 5) (hc : c < 2048) (a b : α) :
    Scalar.select
        (IntOp.cmpi .slt (BitVec.ofNat 32 c) (Scalar.subi 10000#32 (Scalar.muli (BitVec.ofNat 32 k) 2048#32))) a b
      = if c < 10000 - 2048 * k then a else b := by
  by_cases h : c < 10000 - 2048 * k
  · rw [if_pos h, (mask_bit k c hk hc).mpr h, select_one]
  · rw [if_neg h, eq_zero_of_ne_one (fun e => h ((mask_bit k c hk hc).mp e)), select_zero]

/-- A grid point's chunk number is at most 4. -/
theorem chunk_lt (i : grid0.Coords) : (i 1).val < 5 := (i 1).isLt

/-- A vector comparison at an index compares the two words there. -/
theorem cmpi_at {s : Shape} {w : Nat} (p : CmpIPredicate) (x y : IVec s w) (i : s.Idx) :
    cmpi p x y i = IntOp.cmpi p (x i) (y i) := rfl

/-! ## The four stored values at an index -/

/-- The first chunk's store: the chunk product plus the bias row, copied to every row. -/
theorem pay3_apply (C : Vec Ideal S2000x2048 .f32) (Pc : Vec Ideal S2048x16 .f32) (Bg : Vec Ideal S1x16 .f32)
    (r : Fin 2000) (j : Fin 16) :
    k0_pay3 (F := Ideal) C Pc Bg (ix2 r j)
      = (∑ cc : Fin 2048, C (ix2 r cc) * Pc (ix2 cc j)) + Bg (ix2 0 j) := by
  unfold k0_pay3
  rw [addf_apply, matmul_chunk_apply, shapeCast_self, broadcastTo_1b_ab_apply]

/-- A middle chunk's store: what the strip held, plus the chunk product. -/
theorem pay4_apply (C : Vec Ideal S2000x2048 .f32) (Prev : Vec Ideal S2000x16 .f32) (Pc : Vec Ideal S2048x16 .f32)
    (r : Fin 2000) (j : Fin 16) :
    k0_pay4 (F := Ideal) C Prev Pc (ix2 r j)
      = Prev (ix2 r j) + ∑ cc : Fin 2048, C (ix2 r cc) * Pc (ix2 cc j) := by
  unfold k0_pay4
  rw [addf_apply, shapeCast_self, matmul_chunk_apply]

/-- The last chunk's store: what the strip held, plus the product of the chunk with its columns past the
    array's end put to zero. -/
theorem pay2_apply (i : grid0.Coords) (C : Vec Ideal S2000x2048 .f32) (Prev : Vec Ideal S2000x16 .f32)
    (Pc : Vec Ideal S2048x16 .f32) (r : Fin 2000) (j : Fin 16) :
    k0_pay2 (F := Ideal) i C Prev Pc (ix2 r j)
      = Prev (ix2 r j) + ∑ cc : Fin 2048,
          (if cc.val < 10000 - 2048 * (i 1).val then C (ix2 r cc) else 0) * Pc (ix2 cc j) := by
  unfold k0_pay2
  rw [addf_apply, shapeCast_self, matmul_chunk_apply]
  refine congrArg (Prev (ix2 r j) + ·) (Finset.sum_congr rfl fun cc _ => ?_)
  refine congrArg (· * Pc (ix2 cc j)) ?_
  rw [select_apply]
  -- the column number at (r, cc) is cc
  have hcol : iota .tc S2000x2048 32 [1] iota_S2000x2048_d1_w32 (ix2 r cc) = BitVec.ofNat 32 cc.val :=
    iota_single_apply .tc S2000x2048 32 1 iota_S2000x2048_d1_w32 (ix2 r cc)
  show Scalar.select
      (IntOp.cmpi .slt (iota .tc S2000x2048 32 [1] iota_S2000x2048_d1_w32 (ix2 r cc))
        (Scalar.subi 10000#32 (Scalar.muli (BitVec.ofNat 32 (i 1).val) 2048#32)))
      (C (ix2 r cc)) (Ideal.ofBits .f32 0x00000000#32) = _
  rw [hcol, Ideal.ofBits_zero_f32, select_mask (i 1).val cc.val (chunk_lt i) cc.isLt]

/-- A chunk of the projection: per row the hidden layer (affine map, positive part) against the second weights,
    and zero on the rows past the last node. -/
theorem pay1_apply (i : grid0.Coords) (X : Vec Ideal S2048x128 .f32) (W1 : Vec Ideal S128x64 .f32)
    (B1 : Vec Ideal S1x64 .f32) (Wg : Vec Ideal S64x16 .f32) (r : Fin 2048) (j : Fin 16) :
    k0_pay1 (F := Ideal) i X W1 B1 Wg (ix2 r j)
      = if r.val < 10000 - 2048 * (i 1).val then
          ∑ h : Fin 64, max ((∑ d : Fin 128, X (ix2 r d) * W1 (ix2 d h)) + B1 (ix2 0 h)) 0 * Wg (ix2 h j)
        else 0 := by
  unfold k0_pay1
  rw [shapeCast_self, select_apply]
  -- the row number at (r, j) is r
  have hrow : iota .tc S2048x16 32 [0] iota_S2048x16_d0_w32 (ix2 r j) = BitVec.ofNat 32 r.val :=
    iota_single_apply .tc S2048x16 32 0 iota_S2048x16_d0_w32 (ix2 r j)
  rw [cmpi_at, hrow, broadcast_apply, broadcast_apply, select_mask (i 1).val r.val (chunk_lt i) r.isLt,
    matmul_hidden_apply]
  show (if _ then _ else Ideal.ofBits .f32 0x00000000#32) = _
  rw [Ideal.ofBits_zero_f32]
  refine congrArg (fun t => if r.val < 10000 - 2048 * (i 1).val then t else 0)
    (Finset.sum_congr rfl fun h _ => ?_)
  refine congrArg (· * Wg (ix2 h j)) ?_
  rw [maximumf_apply, addf_apply, matmul_in_apply, shapeCast_self, broadcastTo_1b_ab_apply, broadcast_apply]
  show max _ (Ideal.ofBits .f32 0x00000000#32) = _
  rw [Ideal.ofBits_zero_f32]

end Cert.KernelIdeal.PayValue

end
-- ==== Proof.Spec.lean ====
/-
  The function both programs compute, written once, index by index, on the extended reals.

  Arguments: x [10000, 128], conn [10000, 10000], W1 [128, 64], b1 [64], Wg [64, 16], bg [16].

  The projection of node c is   proj (c, j) = Σ_h max (Σ_d x (c, d) · W1 (d, h) + b1 h, 0) · Wg (h, j),
  and the result at (r, j) is   out (r, j)  = (Σ_{c < 10000} conn (r, c) · proj (c, j)) + bg j.

  The tiled program reaches the same numbers another way. It lays the projection out on 10240 rows, zero on
  the 240 rows past the last node (projPad); it cuts the 10000 columns of conn into five chunks of 2048,
  the last one reaching 240 columns past the array, where it puts zero (connChunk: any word may stand in
  the staging rows and columns past the array's end, so the block is a parameter and only the mask is stated
  here); and it adds the five chunk products from the left, the bias entering with the first
  (partial sums accum 0 … accum 4). That the fifth partial sum is out is a regrouping of one finite sum in a
  commutative monoid together with 0 · 0 = 0; nothing there needs the entries to be finite.
-/
import Idealize.ShloMosaic.PureOps.Ideal
import Idealize.ShloMosaic.Lib.ValueIdx

noncomputable section

open scoped BigOperators

namespace Cert.Spec

open Idealize.ShloMosaic Idealize.ShloMosaic.ValueIdx

/-- The arrays' shapes, literal. -/
abbrev SX : Shape := ⟨2, ![10000, 128]⟩
abbrev SConn : Shape := ⟨2, ![10000, 10000]⟩
abbrev SW1 : Shape := ⟨2, ![128, 64]⟩
abbrev SB1 : Shape := ⟨1, ![64]⟩
abbrev SWg : Shape := ⟨2, ![64, 16]⟩
abbrev SBg : Shape := ⟨1, ![16]⟩
abbrev SOut : Shape := ⟨2, ![10000, 16]⟩

/-- One hidden unit of one node: the affine map followed by the positive part. -/
def hidden (x : FVec Ideal SX .f32) (W1 : FVec Ideal SW1 .f32) (b1 : FVec Ideal SB1 .f32)
    (c : Fin 10000) (h : Fin 64) : EReal :=
  max ((∑ d : Fin 128, x (ix2 c d) * W1 (ix2 d h)) + b1 (ix1 h)) 0

/-- The projection of node c onto output channel j. -/
def proj (x : FVec Ideal SX .f32) (W1 : FVec Ideal SW1 .f32) (b1 : FVec Ideal SB1 .f32) (Wg : FVec Ideal SWg .f32)
    (c : Fin 10000) (j : Fin 16) : EReal :=
  ∑ h : Fin 64, hidden x W1 b1 c h * Wg (ix2 h j)

/-- The result: the connectivity row against the projections, plus the bias. -/
def out (x : FVec Ideal SX .f32) (conn : FVec Ideal SConn .f32) (W1 : FVec Ideal SW1 .f32) (b1 : FVec Ideal SB1 .f32)
    (Wg : FVec Ideal SWg .f32) (bg : FVec Ideal SBg .f32) : FVec Ideal SOut .f32 :=
  fun i => (∑ c : Fin 10000, conn (ix2 (i 0) c) * proj x W1 b1 Wg c (i 1)) + bg (ix1 (i 1))

/-- The projection laid out on 10240 rows: zero past the last node. -/
def projPad (x : FVec Ideal SX .f32) (W1 : FVec Ideal SW1 .f32) (b1 : FVec Ideal SB1 .f32) (Wg : FVec Ideal SWg .f32)
    (c : Fin 10240) (j : Fin 16) : EReal :=
  if h : c.val < 10000 then proj x W1 b1 Wg ⟨c.val, h⟩ j else 0

/-- Chunk k of a connectivity row as the tiled program multiplies it: the entry at column 2048 k + cc inside the
    array, zero past its end. -/
def connChunk (conn : FVec Ideal SConn .f32) (row : Fin 10000) (k : Fin 5) (cc : Fin 2048) : EReal :=
  if h : 2048 * k.val + cc.val < 10000 then conn (ix2 row ⟨2048 * k.val + cc.val, h⟩) else 0

/-- One chunk's product: Σ_cc connChunk · projPad over the chunk's 2048 columns. -/
def chunkTerm (x : FVec Ideal SX .f32) (conn : FVec Ideal SConn .f32) (W1 : FVec Ideal SW1 .f32) (b1 : FVec Ideal SB1 .f32)
    (Wg : FVec Ideal SWg .f32) (row : Fin 10000) (j : Fin 16) (k : Fin 5) : EReal :=
  ∑ cc : Fin 2048, connChunk conn row k cc
    * projPad x W1 b1 Wg ⟨2048 * k.val + cc.val, by have := k.isLt; have := cc.isLt; omega⟩ j

/-- The partial sums in the order the tiled program forms them: the first chunk with the bias, then one chunk
    at a time added on the right. -/
def accum (x : FVec Ideal SX .f32) (conn : FVec Ideal SConn .f32) (W1 : FVec Ideal SW1 .f32) (b1 : FVec Ideal SB1 .f32)
    (Wg : FVec Ideal SWg .f32) (bg : FVec Ideal SBg .f32) (row : Fin 10000) (j : Fin 16) : Nat → EReal
  | 0 => chunkTerm x conn W1 b1 Wg row j 0 + bg (ix1 j)
  | n + 1 => accum x conn W1 b1 Wg bg row j n
      + (if h : n + 1 < 5 then chunkTerm x conn W1 b1 Wg row j ⟨n + 1, h⟩ else 0)

end Cert.Spec

end
-- ==== Proof.SumChunks.lean ====
/-
  One finite sum, cut into chunks.

  A sum over the 10000 columns of a row is the same as the sum over 10240 columns of the row extended by zero,
  and 10240 = 5 · 2048 columns are five chunks of 2048: column c = 2048 k + cc sits at place cc of chunk k.
  Adding the chunk sums from the left, with a constant b entering after the first chunk, gives the whole sum
  plus b. Only commutativity and associativity of + are used, so the statement holds in any additive
  commutative monoid; in particular it holds on the extended reals with no assumption that anything is finite.
-/
import Mathlib.Algebra.BigOperators.Fin
import Mathlib.Data.Fintype.BigOperators
import Mathlib.Logic.Equiv.Fin.Basic

open scoped BigOperators

namespace Cert.SumChunks

variable {M : Type*} [AddCommMonoid M]

/-- A sum over the first a · b naturals is the double sum over a chunks of b consecutive naturals. -/
theorem sum_range_mul_eq (a b : ℕ) (F : ℕ → M) :
    ∑ i ∈ Finset.range (a * b), F i = ∑ k : Fin a, ∑ cc : Fin b, F (b * k.val + cc.val) := by
  calc ∑ i ∈ Finset.range (a * b), F i
      = ∑ i : Fin (a * b), F i.val := (Fin.sum_univ_eq_sum_range F (a * b)).symm
    _ = ∑ p : Fin a × Fin b, F (finProdFinEquiv p).val :=
        (Equiv.sum_comp finProdFinEquiv (fun i : Fin (a * b) => F i.val)).symm
    _ = ∑ k : Fin a, ∑ cc : Fin b, F (finProdFinEquiv (k, cc)).val :=
        Fintype.sum_prod_type (fun p : Fin a × Fin b => F (finProdFinEquiv p).val)
    _ = ∑ k : Fin a, ∑ cc : Fin b, F (b * k.val + cc.val) :=
        Finset.sum_congr rfl fun k _ => Finset.sum_congr rfl fun cc _ =>
          congrArg F (Nat.add_comm cc.val (b * k.val))

/-- Extending a family on n indices by zero does not change its sum: summing the extension over the first
    n' ≥ n naturals gives the sum of the family. -/
theorem sum_range_zero_ext (n n' : ℕ) (hn : n ≤ n') (f : Fin n → M) :
    ∑ i ∈ Finset.range n', (if h : i < n then f ⟨i, h⟩ else 0) = ∑ c : Fin n, f c := by
  calc ∑ i ∈ Finset.range n', (if h : i < n then f ⟨i, h⟩ else 0)
      = ∑ i ∈ Finset.range n, (if h : i < n then f ⟨i, h⟩ else 0) :=
        (Finset.sum_subset (Finset.range_subset_range.2 hn) (fun i _ hi =>
          dif_neg (fun h => hi (Finset.mem_range.2 h)))).symm
    _ = ∑ c : Fin n, (if h : c.val < n then f ⟨c.val, h⟩ else 0) :=
        (Fin.sum_univ_eq_sum_range (fun i => if h : i < n then f ⟨i, h⟩ else 0) n).symm
    _ = ∑ c : Fin n, f c := Finset.sum_congr rfl fun c _ => dif_pos c.isLt

/-- The five chunk sums of the zero-extended family add up to the sum of the family. -/
theorem chunks_eq (f : Fin 10000 → M) (g : Fin 5 → Fin 2048 → M)
    (hg : ∀ k cc, g k cc = if h : 2048 * k.val + cc.val < 10000 then f ⟨2048 * k.val + cc.val, h⟩ else 0) :
    ∑ k : Fin 5, ∑ cc : Fin 2048, g k cc = ∑ c : Fin 10000, f c := by
  rw [← sum_range_zero_ext 10000 (5 * 2048) (by decide) f, sum_range_mul_eq 5 2048]
  exact Finset.sum_congr rfl fun k _ => Finset.sum_congr rfl fun cc _ => hg k cc

/-- The chunk sums added from the left, a constant b entering after the first chunk: the whole sum plus b. -/
theorem nested_eq (f : Fin 10000 → M) (g : Fin 5 → Fin 2048 → M) (b : M)
    (hg : ∀ k cc, g k cc = if h : 2048 * k.val + cc.val < 10000 then f ⟨2048 * k.val + cc.val, h⟩ else 0) :
    (((((∑ cc, g 0 cc) + b) + ∑ cc, g 1 cc) + ∑ cc, g 2 cc) + ∑ cc, g 3 cc) + ∑ cc, g 4 cc
      = (∑ c : Fin 10000, f c) + b := by
  rw [← chunks_eq f g hg, Fin.sum_univ_five]
  rw [add_right_comm _ b, add_right_comm _ b, add_right_comm _ b, add_right_comm _ b]

end Cert.SumChunks
-- ==== Proof.AccumOut.lean ====
/-
  The fifth partial sum is the result.

  The partial sums add, from the left, the five chunk products of one connectivity row against the padded
  projection, the bias entering with the first. A chunk product is a sum over 2048 columns; at column
  2048 k + cc inside the array its term is conn (row, c) · proj (c, j) for c = 2048 k + cc, and past the end
  of the array both factors are zero, so the term is 0 · 0 = 0. The five chunk products are therefore the
  five chunk sums of the family c ↦ conn (row, c) · proj (c, j) extended by zero, and regrouping one finite
  sum in a commutative monoid gives Σ_c conn (row, c) · proj (c, j) + bg j. Nothing here asks the entries to
  be finite: only 0 · 0 = 0 and the commutativity and associativity of + are used.
-/
import proofs.«122200_g63917703299193_cont_sun_m_350_28_alg».proof.Proof.Spec
import proofs.«122200_g63917703299193_cont_sun_m_350_28_alg».proof.Proof.SumChunks

noncomputable section

open scoped BigOperators

namespace Cert.Spec

open Idealize.ShloMosaic Idealize.ShloMosaic.ValueIdx

/-- One column's term of a chunk product: the term of the full sum at column 2048 k + cc when that column is
    inside the array, and zero past its end (both factors are zero there). -/
theorem chunk_term_eq (x : FVec Ideal SX .f32) (conn : FVec Ideal SConn .f32) (W1 : FVec Ideal SW1 .f32)
    (b1 : FVec Ideal SB1 .f32) (Wg : FVec Ideal SWg .f32) (row : Fin 10000) (j : Fin 16) (k : Fin 5) (cc : Fin 2048) :
    connChunk conn row k cc
        * projPad x W1 b1 Wg ⟨2048 * k.val + cc.val, by have := k.isLt; have := cc.isLt; omega⟩ j
      = if h : 2048 * k.val + cc.val < 10000 then
          conn (ix2 row ⟨2048 * k.val + cc.val, h⟩) * proj x W1 b1 Wg ⟨2048 * k.val + cc.val, h⟩ j
        else 0 := by
  by_cases h : 2048 * k.val + cc.val < 10000
  · simp only [connChunk, projPad, dif_pos h]
  · simp only [connChunk, projPad, dif_neg h, mul_zero]

/-- The first partial sum: the first chunk product and the bias. -/
theorem accum_zero (x : FVec Ideal SX .f32) (conn : FVec Ideal SConn .f32) (W1 : FVec Ideal SW1 .f32)
    (b1 : FVec Ideal SB1 .f32) (Wg : FVec Ideal SWg .f32) (bg : FVec Ideal SBg .f32) (row : Fin 10000) (j : Fin 16) :
    accum x conn W1 b1 Wg bg row j 0 = chunkTerm x conn W1 b1 Wg row j 0 + bg (ix1 j) := by
  rw [accum]

/-- Each later partial sum adds one chunk product on the right. -/
theorem accum_succ (x : FVec Ideal SX .f32) (conn : FVec Ideal SConn .f32) (W1 : FVec Ideal SW1 .f32)
    (b1 : FVec Ideal SB1 .f32) (Wg : FVec Ideal SWg .f32) (bg : FVec Ideal SBg .f32) (row : Fin 10000) (j : Fin 16)
    (n : Nat) (h : n + 1 < 5) :
    accum x conn W1 b1 Wg bg row j (n + 1)
      = accum x conn W1 b1 Wg bg row j n + chunkTerm x conn W1 b1 Wg row j ⟨n + 1, h⟩ := by
  rw [accum, dif_pos h]

/-- The fifth partial sum is the result at (row, j). -/
theorem accum_four (x : FVec Ideal SX .f32) (conn : FVec Ideal SConn .f32) (W1 : FVec Ideal SW1 .f32)
    (b1 : FVec Ideal SB1 .f32) (Wg : FVec Ideal SWg .f32) (bg : FVec Ideal SBg .f32) (row : Fin 10000) (j : Fin 16) :
    accum x conn W1 b1 Wg bg row j 4 = out x conn W1 b1 Wg bg (ix2 row j) := by
  have h1 : accum x conn W1 b1 Wg bg row j 1
      = accum x conn W1 b1 Wg bg row j 0 + chunkTerm x conn W1 b1 Wg row j 1 :=
    accum_succ x conn W1 b1 Wg bg row j 0 (by decide)
  have h2 : accum x conn W1 b1 Wg bg row j 2
      = accum x conn W1 b1 Wg bg row j 1 + chunkTerm x conn W1 b1 Wg row j 2 :=
    accum_succ x conn W1 b1 Wg bg row j 1 (by decide)
  have h3 : accum x conn W1 b1 Wg bg row j 3
      = accum x conn W1 b1 Wg bg row j 2 + chunkTerm x conn W1 b1 Wg row j 3 :=
    accum_succ x conn W1 b1 Wg bg row j 2 (by decide)
  have h4 : accum x conn W1 b1 Wg bg row j 4
      = accum x conn W1 b1 Wg bg row j 3 + chunkTerm x conn W1 b1 Wg row j 4 :=
    accum_succ x conn W1 b1 Wg bg row j 3 (by decide)
  rw [h4, h3, h2, h1, accum_zero]
  exact Cert.SumChunks.nested_eq (M := EReal)
    (fun c : Fin 10000 => conn (ix2 row c) * proj x W1 b1 Wg c j)
    (fun (k : Fin 5) (cc : Fin 2048) => connChunk conn row k cc
      * projPad x W1 b1 Wg ⟨2048 * k.val + cc.val, by have := k.isLt; have := cc.isLt; omega⟩ j)
    (bg (ix1 j))
    (fun k cc => chunk_term_eq x conn W1 b1 Wg row j k cc)

end Cert.Spec

end
-- ==== Proof.ValueStep.lean ====
/-
  The body's stores, read in the specification's terms.

  The scratch: after the points of chunks 0 … n − 1 of the first strip, rows 2048 k … 2048 k + 2047 of the
  scratch hold the padded projection for every k < n. The store of chunk k writes those rows and no others;
  on them the stored value is the projection where the row is a node, and zero past the last node, which is
  what the padded projection is. Only the input rows inside the array are known; the mask discards the rest.

  The output block: the first chunk's store is the first partial sum, a middle chunk's store adds that
  chunk's product to the partial sum before it, and the last chunk's store adds the product of the chunk with
  its 240 columns past the array put to zero. A chunk product's summand at a column inside the array is the
  connectivity entry times the padded projection; past the array (the last chunk only: 2048 k + 2047 < 10000
  for k ≤ 3) the entry's stand-in is zero on both sides.
-/
import proofs.«122200_g63917703299193_cont_sun_m_350_28_alg».proof.Proof.BodyDefs
import proofs.«122200_g63917703299193_cont_sun_m_350_28_alg».proof.Proof.PayloadIdeal
import proofs.«122200_g63917703299193_cont_sun_m_350_28_alg».proof.Proof.AccumOut

set_option maxRecDepth 16384

noncomputable section

open scoped BigOperators

namespace Cert.KernelIdeal.ValueStep

open Cert.KernelIdeal Cert.KernelIdeal.Gen Cert.KernelIdeal.Body Cert.KernelIdeal.PayValue Cert.Spec
open Idealize.ShloMosaic Idealize.ShloMosaic.ValueIdx

variable (x : FVec Ideal SX .f32) (conn : FVec Ideal SConn .f32) (W1 : FVec Ideal SW1 .f32)
  (b1 : FVec Ideal SB1 .f32) (Wg : FVec Ideal SWg .f32) (bg : FVec Ideal SBg .f32)

/-- A grid point's strip number is at most 4. -/
theorem strip_lt (i : grid0.Coords) : (i 0).val < 5 := (i 0).isLt

/-! ## The output block -/

/-- A partial sum past the first is the one before it plus its own chunk's product. -/
theorem accum_step (row : Fin 10000) (j : Fin 16) (k : Nat) (hk0 : 0 < k) (hk5 : k < 5) :
    accum x conn W1 b1 Wg bg row j k
      = accum x conn W1 b1 Wg bg row j (k - 1) + chunkTerm x conn W1 b1 Wg row j ⟨k, hk5⟩ := by
  obtain ⟨n, rfl⟩ : ∃ n, k = n + 1 := ⟨k - 1, by omega⟩
  rw [Nat.add_sub_cancel]
  exact accum_succ x conn W1 b1 Wg bg row j n hk5

/-- The product of a whole chunk (every column inside the array: chunks 0 … 3) is the specification's. -/
theorem chunk_prod (i : grid0.Coords) (hk4 : (i 1).val < 4) (X1 : Vec Ideal S2000x2048 .f32) (Pc : Vec Ideal S2048x16 .f32)
    (hX1 : ∀ (r : Fin 2000) (cc : Fin 2048) (h : 2048 * (i 1).val + cc.val < 10000),
      X1 (ix2 r cc) = conn (ix2 ⟨2000 * (i 0).val + r.val, by have := strip_lt i; have := r.isLt; omega⟩ ⟨2048 * (i 1).val + cc.val, h⟩))
    (hPc : ∀ (cc : Fin 2048) (j : Fin 16), Pc (ix2 cc j) = projPad x W1 b1 Wg ⟨2048 * (i 1).val + cc.val, by have := chunk_lt i; have := cc.isLt; omega⟩ j)
    (r : Fin 2000) (j : Fin 16) :
    ∑ cc : Fin 2048, X1 (ix2 r cc) * Pc (ix2 cc j)
      = chunkTerm x conn W1 b1 Wg ⟨2000 * (i 0).val + r.val, by have := strip_lt i; have := r.isLt; omega⟩ j ⟨(i 1).val, chunk_lt i⟩ := by
  unfold chunkTerm
  refine Finset.sum_congr rfl fun cc _ => ?_
  have hin : 2048 * (i 1).val + cc.val < 10000 := by have := cc.isLt; omega
  rw [hX1 r cc hin, hPc cc j]
  simp only [connChunk, dif_pos hin]

/-- The product of the last chunk with its columns past the array put to zero is the specification's. -/
theorem chunk_prod_last (i : grid0.Coords) (hk : (i 1).val = 4) (X1 : Vec Ideal S2000x2048 .f32) (Pc : Vec Ideal S2048x16 .f32)
    (hX1 : ∀ (r : Fin 2000) (cc : Fin 2048) (h : 2048 * (i 1).val + cc.val < 10000),
      X1 (ix2 r cc) = conn (ix2 ⟨2000 * (i 0).val + r.val, by have := strip_lt i; have := r.isLt; omega⟩ ⟨2048 * (i 1).val + cc.val, h⟩))
    (hPc : ∀ (cc : Fin 2048) (j : Fin 16), Pc (ix2 cc j) = projPad x W1 b1 Wg ⟨2048 * (i 1).val + cc.val, by have := chunk_lt i; have := cc.isLt; omega⟩ j)
    (r : Fin 2000) (j : Fin 16) :
    ∑ cc : Fin 2048, (if cc.val < 10000 - 2048 * (i 1).val then X1 (ix2 r cc) else 0) * Pc (ix2 cc j)
      = chunkTerm x conn W1 b1 Wg ⟨2000 * (i 0).val + r.val, by have := strip_lt i; have := r.isLt; omega⟩ j ⟨(i 1).val, chunk_lt i⟩ := by
  unfold chunkTerm
  refine Finset.sum_congr rfl fun cc _ => ?_
  by_cases hin : 2048 * (i 1).val + cc.val < 10000
  · rw [if_pos (by omega), hX1 r cc hin, hPc cc j]
    simp only [connChunk, dif_pos hin]
  · rw [if_neg (by omega), hPc cc j]
    simp only [connChunk, dif_neg hin]

/-- The first chunk's store is the first partial sum. -/
theorem out_start (i : grid0.Coords) (hk : (i 1).val = 0) (X1 : Vec Ideal S2000x2048 .f32) (Pc : Vec Ideal S2048x16 .f32)
    (X5 : Vec Ideal S1x16 .f32)
    (hX1 : ∀ (r : Fin 2000) (cc : Fin 2048) (h : 2048 * (i 1).val + cc.val < 10000),
      X1 (ix2 r cc) = conn (ix2 ⟨2000 * (i 0).val + r.val, by have := strip_lt i; have := r.isLt; omega⟩ ⟨2048 * (i 1).val + cc.val, h⟩))
    (hPc : ∀ (cc : Fin 2048) (j : Fin 16), Pc (ix2 cc j) = projPad x W1 b1 Wg ⟨2048 * (i 1).val + cc.val, by have := chunk_lt i; have := cc.isLt; omega⟩ j)
    (hX5 : ∀ j : Fin 16, X5 (ix2 0 j) = bg (ix1 j)) (r : Fin 2000) (j : Fin 16) :
    k0_pay3 (F := Ideal) X1 Pc X5 (ix2 r j)
      = accum x conn W1 b1 Wg bg ⟨2000 * (i 0).val + r.val, by have := strip_lt i; have := r.isLt; omega⟩ j 0 := by
  rw [pay3_apply, hX5 j, chunk_prod x conn W1 b1 Wg i (by omega) X1 Pc hX1 hPc r j, accum_zero]
  exact congrArg (fun q => chunkTerm x conn W1 b1 Wg ⟨2000 * (i 0).val + r.val, by have := strip_lt i; have := r.isLt; omega⟩ j q + bg (ix1 j)) (Fin.ext hk)

/-- A middle chunk's store is the next partial sum. -/
theorem out_middle (i : grid0.Coords) (hk0 : 0 < (i 1).val) (hk4 : (i 1).val < 4) (X1 : Vec Ideal S2000x2048 .f32)
    (Prev : Vec Ideal S2000x16 .f32) (Pc : Vec Ideal S2048x16 .f32)
    (hX1 : ∀ (r : Fin 2000) (cc : Fin 2048) (h : 2048 * (i 1).val + cc.val < 10000),
      X1 (ix2 r cc) = conn (ix2 ⟨2000 * (i 0).val + r.val, by have := strip_lt i; have := r.isLt; omega⟩ ⟨2048 * (i 1).val + cc.val, h⟩))
    (hPc : ∀ (cc : Fin 2048) (j : Fin 16), Pc (ix2 cc j) = projPad x W1 b1 Wg ⟨2048 * (i 1).val + cc.val, by have := chunk_lt i; have := cc.isLt; omega⟩ j)
    (r : Fin 2000) (j : Fin 16)
    (hPrev : Prev (ix2 r j) = accum x conn W1 b1 Wg bg ⟨2000 * (i 0).val + r.val, by have := strip_lt i; have := r.isLt; omega⟩ j ((i 1).val - 1)) :
    k0_pay4 (F := Ideal) X1 Prev Pc (ix2 r j)
      = accum x conn W1 b1 Wg bg ⟨2000 * (i 0).val + r.val, by have := strip_lt i; have := r.isLt; omega⟩ j (i 1).val := by
  rw [pay4_apply, hPrev, chunk_prod x conn W1 b1 Wg i hk4 X1 Pc hX1 hPc r j,
    accum_step x conn W1 b1 Wg bg _ j (i 1).val hk0 (chunk_lt i)]

/-- The last chunk's store is the fifth partial sum. -/
theorem out_last (i : grid0.Coords) (hk : (i 1).val = 4) (X1 : Vec Ideal S2000x2048 .f32)
    (Prev : Vec Ideal S2000x16 .f32) (Pc : Vec Ideal S2048x16 .f32)
    (hX1 : ∀ (r : Fin 2000) (cc : Fin 2048) (h : 2048 * (i 1).val + cc.val < 10000),
      X1 (ix2 r cc) = conn (ix2 ⟨2000 * (i 0).val + r.val, by have := strip_lt i; have := r.isLt; omega⟩ ⟨2048 * (i 1).val + cc.val, h⟩))
    (hPc : ∀ (cc : Fin 2048) (j : Fin 16), Pc (ix2 cc j) = projPad x W1 b1 Wg ⟨2048 * (i 1).val + cc.val, by have := chunk_lt i; have := cc.isLt; omega⟩ j)
    (r : Fin 2000) (j : Fin 16)
    (hPrev : Prev (ix2 r j) = accum x conn W1 b1 Wg bg ⟨2000 * (i 0).val + r.val, by have := strip_lt i; have := r.isLt; omega⟩ j 3) :
    k0_pay2 (F := Ideal) i X1 Prev Pc (ix2 r j)
      = accum x conn W1 b1 Wg bg ⟨2000 * (i 0).val + r.val, by have := strip_lt i; have := r.isLt; omega⟩ j 4 := by
  rw [pay2_apply, hPrev, chunk_prod_last x conn W1 b1 Wg i hk X1 Pc hX1 hPc r j]
  exact ((accum_succ x conn W1 b1 Wg bg _ j 3 (by decide)).trans
    (congrArg (fun q => accum x conn W1 b1 Wg bg ⟨2000 * (i 0).val + r.val, by have := strip_lt i; have := r.isLt; omega⟩ j 3
      + chunkTerm x conn W1 b1 Wg ⟨2000 * (i 0).val + r.val, by have := strip_lt i; have := r.isLt; omega⟩ j q) (Fin.ext hk.symm))).symm

/-! ## The scratch -/

/-- The first n chunks of the scratch hold the padded projection. -/
def ScrInv (n : Nat) (X9 : Vec Ideal S10240x16 .f32) : Prop :=
  ∀ (k : Fin 5), k.val < n → ∀ (cc : Fin 2048) (j : Fin 16),
    X9 (ix2 ⟨2048 * k.val + cc.val, by have := k.isLt; have := cc.isLt; omega⟩ j) = projPad x W1 b1 Wg ⟨2048 * k.val + cc.val, by have := k.isLt; have := cc.isLt; omega⟩ j

/-- The first-chunk product's load of the scratch reads chunk 0 of the padded projection. -/
theorem ld_rect0 {n : Nat} {X9 : Vec Ideal S10240x16 .f32} (hinv : ScrInv x W1 b1 Wg n X9) (hn : 0 < n)
    (cc : Fin 2048) (j : Fin 16) :
    View.ld X9 rect0 (ix2 cc j) = projPad x W1 b1 Wg ⟨cc.val, by have := cc.isLt; omega⟩ j := by
  have e : rect0.toLoadRect.idx (ix2 cc j)
      = ix2 (⟨2048 * (0 : Fin 5).val + cc.val, by have := cc.isLt; omega⟩ : Fin 10240) j :=
    funext fun a => Fin.ext (by
      match a with
      | ⟨0, _⟩ => show 0 + 1 * cc.val = 2048 * 0 + cc.val; omega
      | ⟨1, _⟩ => show 0 + 1 * j.val = j.val; omega)
  show X9 (rect0.toLoadRect.idx (ix2 cc j)) = _
  refine (congrArg X9 e).trans ((hinv 0 hn cc j).trans ?_)
  exact congrArg (fun q => projPad x W1 b1 Wg q j) (Fin.ext (by show 2048 * 0 + cc.val = cc.val; omega))

/-- A middle-chunk product's load of the scratch reads its chunk of the padded projection. -/
theorem ld_rect3 {n : Nat} {X9 : Vec Ideal S10240x16 .f32} (hinv : ScrInv x W1 b1 Wg n X9) (i : grid0.Coords)
    (h4 : k0_cond4 i = 1#1) (hn : (i 1).val < n) (cc : Fin 2048) (j : Fin 16) :
    View.ld X9 (rect3 i h4) (ix2 cc j) = projPad x W1 b1 Wg ⟨2048 * (i 1).val + cc.val, by have := chunk_lt i; have := cc.isLt; omega⟩ j := by
  have o0 : k0_off3 i 0 = 2048 * (i 1).val := congrFun (k0_off3_eq i) 0
  have o1 : k0_off3 i 1 = 0 := congrFun (k0_off3_eq i) 1
  have e : (rect3 i h4).toLoadRect.idx (ix2 cc j) = ix2 (⟨2048 * (i 1).val + cc.val, by have := chunk_lt i; have := cc.isLt; omega⟩ : Fin 10240) j :=
    funext fun a => Fin.ext (by
      match a with
      | ⟨0, _⟩ => show k0_off3 i 0 + 1 * cc.val = 2048 * (i 1).val + cc.val; omega
      | ⟨1, _⟩ => show k0_off3 i 1 + 1 * j.val = j.val; omega)
  show X9 ((rect3 i h4).toLoadRect.idx (ix2 cc j)) = _
  exact (congrArg X9 e).trans (hinv ⟨(i 1).val, chunk_lt i⟩ hn cc j)

/-- The last-chunk product's load of the scratch reads its chunk of the padded projection. -/
theorem ld_rect2 {n : Nat} {X9 : Vec Ideal S10240x16 .f32} (hinv : ScrInv x W1 b1 Wg n X9) (i : grid0.Coords)
    (h2 : k0_cond2 i = 1#1) (hn : (i 1).val < n) (cc : Fin 2048) (j : Fin 16) :
    View.ld X9 (rect2 i h2) (ix2 cc j) = projPad x W1 b1 Wg ⟨2048 * (i 1).val + cc.val, by have := chunk_lt i; have := cc.isLt; omega⟩ j := by
  have o0 : k0_off2 i 0 = 2048 * (i 1).val := congrFun (k0_off2_eq i) 0
  have o1 : k0_off2 i 1 = 0 := congrFun (k0_off2_eq i) 1
  have e : (rect2 i h2).toLoadRect.idx (ix2 cc j) = ix2 (⟨2048 * (i 1).val + cc.val, by have := chunk_lt i; have := cc.isLt; omega⟩ : Fin 10240) j :=
    funext fun a => Fin.ext (by
      match a with
      | ⟨0, _⟩ => show k0_off2 i 0 + 1 * cc.val = 2048 * (i 1).val + cc.val; omega
      | ⟨1, _⟩ => show k0_off2 i 1 + 1 * j.val = j.val; omega)
  show X9 ((rect2 i h2).toLoadRect.idx (ix2 cc j)) = _
  exact (congrArg X9 e).trans (hinv ⟨(i 1).val, chunk_lt i⟩ hn cc j)

/-- The rows the projection store of chunk k writes hold the padded projection afterwards. -/
theorem scr_chunk_new (i : grid0.Coords) (h1 : k0_cond1 i = 1#1) (X0 : Vec Ideal S2048x128 .f32)
    (X2 : Vec Ideal S128x64 .f32) (X3 : Vec Ideal S1x64 .f32) (X4 : Vec Ideal S64x16 .f32)
    (X9 : Vec Ideal S10240x16 .f32)
    (hX0 : ∀ (r : Fin 2048) (d : Fin 128) (h : 2048 * (i 1).val + r.val < 10000),
      X0 (ix2 r d) = x (ix2 ⟨2048 * (i 1).val + r.val, h⟩ d))
    (hX2 : ∀ (a : Fin 128) (b : Fin 64), X2 (ix2 a b) = W1 (ix2 a b))
    (hX3 : ∀ h : Fin 64, X3 (ix2 0 h) = b1 (ix1 h))
    (hX4 : ∀ (a : Fin 64) (b : Fin 16), X4 (ix2 a b) = Wg (ix2 a b))
    (cc : Fin 2048) (j : Fin 16) :
    scrAfter i h1 X0 X2 X3 X4 X9 (ix2 (⟨2048 * (i 1).val + cc.val, by have := chunk_lt i; have := cc.isLt; omega⟩ : Fin 10240) j)
      = projPad x W1 b1 Wg ⟨2048 * (i 1).val + cc.val, by have := chunk_lt i; have := cc.isLt; omega⟩ j := by
  have o0 : k0_off1 i 0 = 2048 * (i 1).val := congrFun (k0_off1_eq i) 0
  have o1 : k0_off1 i 1 = 0 := congrFun (k0_off1_eq i) 1
  have e : ix2 (⟨2048 * (i 1).val + cc.val, by have := chunk_lt i; have := cc.isLt; omega⟩ : Fin 10240) j = (scrRect i h1).emb (ix2 cc j) :=
    funext fun a => Fin.ext (by
      match a with
      | ⟨0, _⟩ => show 2048 * (i 1).val + cc.val = k0_off1 i 0 + 1 * cc.val; omega
      | ⟨1, _⟩ => show j.val = k0_off1 i 1 + 1 * j.val; omega)
  unfold scrAfter
  rw [e, Rect.overlay_emb, pay1_apply]
  by_cases hin : 2048 * (i 1).val + cc.val < 10000
  · rw [if_pos (by omega)]
    simp only [projPad, dif_pos hin, Cert.Spec.proj, Cert.Spec.hidden]
    refine Finset.sum_congr rfl fun h _ => ?_
    rw [hX3 h, hX4 h j]
    have es : ∑ d : Fin 128, X0 (ix2 cc d) * X2 (ix2 d h)
        = ∑ d : Fin 128, x (ix2 ⟨2048 * (i 1).val + cc.val, hin⟩ d) * W1 (ix2 d h) :=
      Finset.sum_congr rfl fun d _ => by rw [hX0 cc d hin, hX2 d h]
    rw [es]
  · rw [if_neg (by omega)]
    simp only [projPad, dif_neg hin]

/-- The scratch invariant advances over the projection store of chunk k. -/
theorem scr_inv_step (i : grid0.Coords) (h1 : k0_cond1 i = 1#1) (X0 : Vec Ideal S2048x128 .f32)
    (X2 : Vec Ideal S128x64 .f32) (X3 : Vec Ideal S1x64 .f32) (X4 : Vec Ideal S64x16 .f32)
    (X9 : Vec Ideal S10240x16 .f32)
    (hX0 : ∀ (r : Fin 2048) (d : Fin 128) (h : 2048 * (i 1).val + r.val < 10000),
      X0 (ix2 r d) = x (ix2 ⟨2048 * (i 1).val + r.val, h⟩ d))
    (hX2 : ∀ (a : Fin 128) (b : Fin 64), X2 (ix2 a b) = W1 (ix2 a b))
    (hX3 : ∀ h : Fin 64, X3 (ix2 0 h) = b1 (ix1 h))
    (hX4 : ∀ (a : Fin 64) (b : Fin 16), X4 (ix2 a b) = Wg (ix2 a b))
    (hinv : ScrInv x W1 b1 Wg (i 1).val X9) :
    ScrInv x W1 b1 Wg ((i 1).val + 1) (scrAfter i h1 X0 X2 X3 X4 X9) := by
  intro k hk cc j
  by_cases hlt : k.val < (i 1).val
  · -- an earlier chunk: its rows lie above the rows written
    have o0 : k0_off1 i 0 = 2048 * (i 1).val := congrFun (k0_off1_eq i) 0
    have hoff : ix2 (⟨2048 * k.val + cc.val, by have := k.isLt; have := cc.isLt; omega⟩ : Fin 10240) j ∉ (scrRect i h1).set := by
      rw [Rect.mem_set_unit]
      intro hm
      have h0 : k0_off1 i 0 ≤ 2048 * k.val + cc.val := (hm 0).1
      have := cc.isLt
      omega
    unfold scrAfter
    rw [Rect.overlay_of_not_mem _ _ _ hoff]
    exact hinv k hlt cc j
  · -- this chunk
    obtain rfl : k = ⟨(i 1).val, chunk_lt i⟩ := Fin.ext (by show k.val = (i 1).val; omega)
    exact scr_chunk_new x W1 b1 Wg i h1 X0 X2 X3 X4 X9 hX0 hX2 hX3 hX4 cc j

end Cert.KernelIdeal.ValueStep

end
-- ==== Proof.ValueRun.lean ====
/-
  The value of the tiled program at the ideal instance: after the run the result array holds, index by index,
  (Σ_c conn (r, c) · proj (c, j)) + bg j — the specification's function of the six argument arrays.

  The scratch is carried from point to point, so the run is tracked by an invariant: before grid point t the first
  t chunks of the scratch (all five from the second strip on) hold the padded projection. In the first strip each
  point computes its chunk from the x block it is handed — on the last chunk 240 rows of that buffer lie past the
  array and hold anything; the body's row mask replaces those rows of the product by zero, and a row of a product
  depends only on the same row of its left factor, so the chunk does not depend on them — and stores it. The output
  block of strip i after chunk k holds the k-th partial sum of rows 2000 i … 2000 i + 1999: the first chunk starts
  it with the bias, each later chunk adds its product (the last with conn's 240 columns past the array masked to
  zero), and the block left by one point is what the next finds. The strip is written back after its fifth chunk,
  and the fifth partial sum is the result's row: the five strips tile the 10000 rows.
-/
import proofs.«122200_g63917703299193_cont_sun_m_350_28_alg».proof.Proof.FramePlain
import proofs.«122200_g63917703299193_cont_sun_m_350_28_alg».proof.Proof.BlockReads
import proofs.«122200_g63917703299193_cont_sun_m_350_28_alg».proof.Proof.FoundBuffers
import proofs.«122200_g63917703299193_cont_sun_m_350_28_alg».proof.Proof.OutCover
import proofs.«122200_g63917703299193_cont_sun_m_350_28_alg».proof.Proof.ValueStep
import Idealize.ShloMosaic.Lib.Pipeline.Value

set_option maxRecDepth 16384

noncomputable section

namespace Cert.KernelIdeal.Body

open Cert.KernelIdeal Cert.KernelIdeal.Gen
open Cert.KernelIdeal.BlockReads Cert.KernelIdeal.FoundBuffers Cert.KernelIdeal.OutCover Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The six argument arrays of core c, as the specification types them. -/
abbrev aX (c : Dev nD) : FVec Ideal SX .f32 := m ((c : Thread nD τ).loc main_arg0)
abbrev aConn (c : Dev nD) : FVec Ideal SConn .f32 := m ((c : Thread nD τ).loc main_arg1)
abbrev aW1 (c : Dev nD) : FVec Ideal SW1 .f32 := m ((c : Thread nD τ).loc main_arg2)
abbrev aB1 (c : Dev nD) : FVec Ideal SB1 .f32 := m ((c : Thread nD τ).loc main_arg3)
abbrev aWg (c : Dev nD) : FVec Ideal SWg .f32 := m ((c : Thread nD τ).loc main_arg4)
abbrev aBg (c : Dev nD) : FVec Ideal SBg .f32 := m ((c : Thread nD τ).loc main_arg5)

/-- The output block after grid point t (strip t / 5, chunk t % 5): row r of it is the partial sum through that
    chunk of row 2000 (t / 5) + r of the result. -/
def outAt (c : Dev nD) (t : Fin cfg0.N) : S2000x16.Idx → Elt Ideal .f32 := fun y =>
  accum (aX m c) (aConn m c) (aW1 m c) (aB1 m c) (aWg m c) (aBg m c)
    ⟨2000 * (t.val / 5) + (y 0).val, strip_row_lt t (y 0)⟩ (y 1) (t.val % 5)

/-- What the scratch holds before point t: its first t chunks (all five from the second strip on) are the padded
    projection; the generator register is at some state. -/
def PhiV (c : Dev nD) (t : Fin (cfg0.N + 1)) : sProp 𝕄 :=
  iprop((∃ X9, owns (c : Thread nD τ) scM fullShare X9
      ∗ ⌜Cert.KernelIdeal.ValueStep.ScrInv (aX m c) (aW1 m c) (aB1 m c) (aWg m c) t.val X9⌝) ∗ (∃ r, prngReg c r))

/-- The proof data at the ideal instance: the arrays as the region finds them; after the body each input's buffer
    at its block (a clipped block filled out with zeros past the array's end, where nothing is stated of it), the
    output's at the partial sum; the scratch invariant; nothing owed; full shares. -/
def datsV (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiV m c t
  q _ := fullShare
  owed _ := 0

theorem A_eqV (c : Dev nD) (w : Fin cfg0.W) : (datsV m 0 c).A w = V m c (Pipeline.arrRef spec0 w) := by
  dsimp only [datsV]

theorem afterV2 (c : Dev nD) (t : Fin cfg0.N) : (datsV m 0 c).after 2 t = iblk m c 2 t := by dsimp only [datsV]
theorem afterV3 (c : Dev nD) (t : Fin cfg0.N) : (datsV m 0 c).after 3 t = iblk m c 3 t := by dsimp only [datsV]
theorem afterV4 (c : Dev nD) (t : Fin cfg0.N) : (datsV m 0 c).after 4 t = iblk m c 4 t := by dsimp only [datsV]
theorem afterV5 (c : Dev nD) (t : Fin cfg0.N) : (datsV m 0 c).after 5 t = iblk m c 5 t := by dsimp only [datsV]
theorem afterV6 (c : Dev nD) (t : Fin cfg0.N) : (datsV m 0 c).after 6 t = outAt m c t := by dsimp only [datsV]
theorem afterV0 (c : Dev nD) (t : Fin cfg0.N) :
    (datsV m 0 c).after 0 t = win0_0.fill (grid0.coords t) (fun _ => (0 : EReal)) (iblk m c 0 t) := by dsimp only [datsV]
theorem afterV1 (c : Dev nD) (t : Fin cfg0.N) :
    (datsV m 0 c).after 1 t = win0_1.fill (grid0.coords t) (fun _ => (0 : EReal)) (iblk m c 1 t) := by dsimp only [datsV]

/-- Before the first point the scratch may hold anything: no chunk is claimed. -/
theorem phi_in (c : Dev nD) : (Pipeline.ΦA spec0 c : sProp 𝕄) ⊢ PhiV m c 0 := by
  rw [PhiA_eq]; unfold PhiV
  iintro ⟨⟨%d, H⟩, Hr⟩
  isplitl [H]
  · iexists d
    isplitl [H]; · iexact H
    ipureintro
    intro k hk; exact absurd hk (Nat.not_lt_zero _)
  iexact Hr

/-- After the last point what the scratch holds is forgotten. -/
theorem phi_out (c : Dev nD) : PhiV m c (Fin.last cfg0.N) ⊢ (Pipeline.ΦA spec0 c : sProp 𝕄) := by
  rw [PhiA_eq]; unfold PhiV
  iintro ⟨⟨%X9, H, -⟩, Hr⟩
  isplitl [H]
  · iexists X9; iexact H
  iexact Hr

/-! ## What the body finds and what it must leave, window by window -/

theorem beforeV0 (c : Dev nD) (t : Fin cfg0.N) (d) :
    (datsV m 0 c).before 0 t d = win0_0.fill (grid0.coords t) d (iblk m c 0 t) := found_x m (datsV m 0 c) (A_eqV m c 0) t d
theorem beforeV1 (c : Dev nD) (t : Fin cfg0.N) (d) :
    (datsV m 0 c).before 1 t d = win0_1.fill (grid0.coords t) d (iblk m c 1 t) := found_conn m (datsV m 0 c) (A_eqV m c 1) t d
theorem beforeV2 (c : Dev nD) (t : Fin cfg0.N) (d) : (datsV m 0 c).before 2 t d = iblk m c 2 t :=
  before0_2_of m (datsV m 0 c) (A_eqV m c 2) (afterV2 m c) t d
theorem beforeV3 (c : Dev nD) (t : Fin cfg0.N) (d) : (datsV m 0 c).before 3 t d = iblk m c 3 t :=
  before0_3_of m (datsV m 0 c) (A_eqV m c 3) (afterV3 m c) t d
theorem beforeV4 (c : Dev nD) (t : Fin cfg0.N) (d) : (datsV m 0 c).before 4 t d = iblk m c 4 t :=
  before0_4_of m (datsV m 0 c) (A_eqV m c 4) (afterV4 m c) t d
theorem beforeV5 (c : Dev nD) (t : Fin cfg0.N) (d) : (datsV m 0 c).before 5 t d = iblk m c 5 t :=
  before0_5_of m (datsV m 0 c) (A_eqV m c 5) (afterV5 m c) t d
/-- At the first chunk of a strip the output's buffer holds anything; -/
theorem beforeV6_start (c : Dev nD) (t : Fin cfg0.N) (h : t.val % 5 = 0) (d) : (datsV m 0 c).before 6 t d = d :=
  found_out_start (datsV m 0 c) t h d
/-- at a later chunk, the partial sum the point before left. -/
theorem beforeV6_next (c : Dev nD) (t : Fin cfg0.N) (h : t.val % 5 ≠ 0) (d) :
    (datsV m 0 c).before 6 t d = outAt m c ⟨t.val - 1, by have := t.isLt; omega⟩ :=
  (found_out_next (datsV m 0 c) t h d).trans (afterV6 m c _)

theorem leavesV0 (c : Dev nD) (t : Fin cfg0.N) :
    (datsV m 0 c).leaves 0 t = iprop(∃ d, owns (c : Thread nD τ) (ms0 t) fullShare (win0_0.fill (grid0.coords t) d (iblk m c 0 t))) := by
  show iprop(∃ d, owns (c : Thread nD τ) (ms0 t) fullShare (win0_0.fill (grid0.coords t) d (win0_0.cut (grid0.coords t) ((datsV m 0 c).after 0 t)))) = _
  rw [afterV0]; simp only [Window.cut_fill]
theorem leavesV1 (c : Dev nD) (t : Fin cfg0.N) :
    (datsV m 0 c).leaves 1 t = iprop(∃ d, owns (c : Thread nD τ) (ms1 t) fullShare (win0_1.fill (grid0.coords t) d (iblk m c 1 t))) := by
  show iprop(∃ d, owns (c : Thread nD τ) (ms1 t) fullShare (win0_1.fill (grid0.coords t) d (win0_1.cut (grid0.coords t) ((datsV m 0 c).after 1 t)))) = _
  rw [afterV1]; simp only [Window.cut_fill]
theorem leavesV2 (c : Dev nD) (t : Fin cfg0.N) : (datsV m 0 c).leaves 2 t = owns (c : Thread nD τ) (ms2 t) fullShare (iblk m c 2 t) := by
  show owns (c : Thread nD τ) (ms2 t) fullShare ((datsV m 0 c).after 2 t) = _; rw [afterV2]
theorem leavesV3 (c : Dev nD) (t : Fin cfg0.N) : (datsV m 0 c).leaves 3 t = owns (c : Thread nD τ) (ms3 t) fullShare (iblk m c 3 t) := by
  show owns (c : Thread nD τ) (ms3 t) fullShare ((datsV m 0 c).after 3 t) = _; rw [afterV3]
theorem leavesV4 (c : Dev nD) (t : Fin cfg0.N) : (datsV m 0 c).leaves 4 t = owns (c : Thread nD τ) (ms4 t) fullShare (iblk m c 4 t) := by
  show owns (c : Thread nD τ) (ms4 t) fullShare ((datsV m 0 c).after 4 t) = _; rw [afterV4]
theorem leavesV5 (c : Dev nD) (t : Fin cfg0.N) : (datsV m 0 c).leaves 5 t = owns (c : Thread nD τ) (ms5 t) fullShare (iblk m c 5 t) := by
  show owns (c : Thread nD τ) (ms5 t) fullShare ((datsV m 0 c).after 5 t) = _; rw [afterV5]
theorem leavesV6 (c : Dev nD) (t : Fin cfg0.N) : (datsV m 0 c).leaves 6 t = owns (c : Thread nD τ) (ms6 t) fullShare (outAt m c t) := by
  unfold Dat.leaves; rw [live6 (grid0.coords t)]
  show owns (c : Thread nD τ) (ms6 t) fullShare ((datsV m 0 c).after 6 t) = _; rw [afterV6]

/-! ## The found buffers read at an index, at the point's own coordinates -/

/-- The x block: on the rows inside the array, x's rows 2048 k …, whatever fills the rest. -/
theorem x_at (c : Dev nD) (t : Fin cfg0.N) (d) (r : Fin 2048) (dd : Fin 128) (h : 2048 * (grid0.coords t 1).val + r.val < 10000) :
    win0_0.fill (grid0.coords t) d (iblk m c 0 t) (ix2 r dd) = aX m c (ix2 ⟨2048 * (grid0.coords t 1).val + r.val, h⟩ dd) := by
  have h1 := (coords_at t).2
  rw [x_read m c t d r dd (h1 ▸ h)]
  exact congrArg (aX m c) (congrArg (fun a => ix2 a dd) (Fin.ext (by simp only [h1])))

/-- The conn block: on the columns inside the array, conn's rows 2000 i … and columns 2048 k …. -/
theorem conn_at (c : Dev nD) (t : Fin cfg0.N) (d) (r : Fin 2000) (cc : Fin 2048) (h : 2048 * (grid0.coords t 1).val + cc.val < 10000) :
    win0_1.fill (grid0.coords t) d (iblk m c 1 t) (ix2 r cc)
      = aConn m c (ix2 ⟨2000 * (grid0.coords t 0).val + r.val, by have := (coords_at t).1; have := t.isLt; have := r.isLt; have h25 : cfg0.N = 25 := N_0; omega⟩
          ⟨2048 * (grid0.coords t 1).val + cc.val, h⟩) := by
  have h0 := (coords_at t).1
  have h1 := (coords_at t).2
  rw [conn_read m c t d r cc (h1 ▸ h)]
  refine congrArg (aConn m c) ?_
  funext a
  match a with
  | ⟨0, _⟩ => exact Fin.ext (by simp only [ix2, h0])
  | ⟨1, _⟩ => exact Fin.ext (by simp only [ix2, h1])

/-- The output function at (r, j), given the point's strip and chunk as numbers. -/
theorem outAt_apply (c : Dev nD) (t : Fin cfg0.N) (r : Fin 2000) (j : Fin 16) (s k : Nat) (hs : t.val / 5 = s) (hk : t.val % 5 = k)
    (hrow : 2000 * s + r.val < 10000) :
    outAt m c t (ix2 r j) = accum (aX m c) (aConn m c) (aW1 m c) (aB1 m c) (aWg m c) (aBg m c) ⟨2000 * s + r.val, hrow⟩ j k := by
  subst hs hk; rfl

/-! ## The body obligation at the ideal instance -/

/-- What the body is called with at point t, the windows one by one, -/
def preV (c : Dev nD) (t : Fin cfg0.N) : sProp 𝕄 :=
  iprop((datsV m 0 c).Φ t.castSucc ∗ (datsV m 0 c).owesAt () t.castSucc
    ∗ (∃ d, owns (c : Thread nD τ) (ms0 t) fullShare ((datsV m 0 c).before 0 t d)) ∗ (∃ d, owns (c : Thread nD τ) (ms1 t) fullShare ((datsV m 0 c).before 1 t d))
    ∗ (∃ d, owns (c : Thread nD τ) (ms2 t) fullShare ((datsV m 0 c).before 2 t d)) ∗ (∃ d, owns (c : Thread nD τ) (ms3 t) fullShare ((datsV m 0 c).before 3 t d))
    ∗ (∃ d, owns (c : Thread nD τ) (ms4 t) fullShare ((datsV m 0 c).before 4 t d)) ∗ (∃ d, owns (c : Thread nD τ) (ms5 t) fullShare ((datsV m 0 c).before 5 t d))
    ∗ (∃ d, owns (c : Thread nD τ) (ms6 t) fullShare ((datsV m 0 c).before 6 t d)))

/-- and what it must return. -/
def postV (c : Dev nD) (t : Fin cfg0.N) : sProp 𝕄 :=
  iprop((datsV m 0 c).Φ t.succ ∗ (datsV m 0 c).owesAt () t.succ
    ∗ (datsV m 0 c).leaves 0 t ∗ (datsV m 0 c).leaves 1 t ∗ (datsV m 0 c).leaves 2 t ∗ (datsV m 0 c).leaves 3 t
    ∗ (datsV m 0 c).leaves 4 t ∗ (datsV m 0 c).leaves 5 t ∗ (datsV m 0 c).leaves 6 t)

set_option hygiene false in
/-- Handing a run its eight buffers. -/
macro "give_buffers" : tactic => `(tactic| (
  isplitl [H0 H1 H2 H3 H4 H5 H6 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H9))

set_option hygiene false in
/-- Returning the input buffers as they were found. -/
macro "return_inputs" : tactic => `(tactic| (
  isplitl [Ho]; · iexact Ho
  isplitl [H0]; · iexists d0; iexact H0
  isplitl [H1]; · iexists d1; iexact H1
  isplitl [H2]; · iexact H2
  isplitl [H3]; · iexact H3
  isplitl [H4]; · iexact H4
  isplitl [H5]; · iexact H5))

set_option maxHeartbeats 2000000 in
/-- The body at any point: the found buffers hold their blocks; the point's pattern of branches picks the run; the
    scratch invariant advances (a new chunk in the first strip, nothing new later); the output block becomes the
    next partial sum. -/
theorem sound_bodyV (c : Dev nD) (t : Fin cfg0.N) :
    preV m c t ⊢ wp Idealize.ShloMosaic.frame (wpE (defs₀ (F := Ideal)) Variants.none c none) Set.univ (bodyAt0 t) (fun _ => postV m c t) := by
  unfold preV postV bodyAt0
  rw [leavesV0, leavesV1, leavesV2, leavesV3, leavesV4, leavesV5, leavesV6]
  simp only [beforeV0, beforeV1, beforeV2, beforeV3, beforeV4, beforeV5]
  rw [show (datsV m 0 c).owesAt () t.succ = (datsV m 0 c).owesAt () t.castSucc from rfl,
    show (datsV m 0 c).Φ t.castSucc = PhiV m c t.castSucc from rfl, show (datsV m 0 c).Φ t.succ = PhiV m c t.succ from rfl]
  unfold PhiV
  have hi0 := (coords_at t).1
  have hi1 := (coords_at t).2
  have hsucc : (t.succ : Fin (cfg0.N + 1)).val = t.val + 1 := Fin.val_succ t
  have hcast : (t.castSucc : Fin (cfg0.N + 1)).val = t.val := rfl
  have hN : t.val < 25 := lt_of_lt_of_eq t.isLt N_0
  rcases cases_at t with ⟨h1, h2, h3, h4, hs, hk⟩ | ⟨h1, h2, h3, h4, hs, hk0, hk4⟩ | ⟨h1, h2, h3, h4, hs, hk⟩ | ⟨h1, h2, h3, h4, hs, hk⟩ | ⟨h1, h2, h3, h4, hs, hk0, hk4⟩ | ⟨h1, h2, h3, h4, hs, hk⟩
  · -- first strip, first chunk
    simp only [beforeV6_start m c t hk]
    iintro ⟨⟨⟨%X9, H9, %hinv⟩, Hr⟩, Ho, ⟨%d0, H0⟩, ⟨%d1, H1⟩, ⟨%d2, H2⟩, ⟨%d3, H3⟩, ⟨%d4, H4⟩, ⟨%d5, H5⟩, ⟨%d6, H6⟩⟩
    have ht : (grid0.coords t 1).val = t.val := by omega
    have hScr := Cert.KernelIdeal.ValueStep.scr_inv_step (aX m c) (aW1 m c) (aB1 m c) (aWg m c) (grid0.coords t) h1 _ _ _ _ X9
      (x_at m c t d0) (w1_read m c t) (b1_read m c t) (wg_read m c t) (by rw [ht]; exact hinv)
    iapply (run_first_start c (grid0.coords t) _ _ _ _ _ _ _ _ _ _ _ _ _ _ _ _ h1 h2 h3 h4 _ _ _ _ _ _ d6 X9 Set.univ _)
    give_buffers
    iintro ⟨H0, H1, H2, H3, H4, H5, H6, H9⟩
    isplitl [H9 Hr]
    · isplitl [H9]
      · iexists _
        isplitl [H9]; · iexact H9
        ipureintro
        rw [hsucc, ← ht]; exact hScr
      iexact Hr
    return_inputs
    have e : k0_pay3 (F := Ideal) (win0_1.fill (grid0.coords t) d1 (iblk m c 1 t)) (View.ld (scrAfter (grid0.coords t) h1 (win0_0.fill (grid0.coords t) d0 (iblk m c 0 t)) (iblk m c 2 t) (iblk m c 3 t) (iblk m c 4 t) X9) rect0) (iblk m c 5 t) = outAt m c t := by
      funext y
      obtain ⟨r, j, rfl⟩ : ∃ (r : Fin 2000) (j : Fin 16), y = ix2 r j := ⟨y 0, y 1, eq_ix2 y⟩
      exact (Cert.KernelIdeal.ValueStep.out_start (aX m c) (aConn m c) (aW1 m c) (aB1 m c) (aWg m c) (aBg m c) (grid0.coords t) (by omega) _ _ _ (conn_at m c t d1)
        (fun cc j => (Cert.KernelIdeal.ValueStep.ld_rect0 (aX m c) (aW1 m c) (aB1 m c) (aWg m c) hScr (Nat.succ_pos _) cc j).trans
          (congrArg (fun a => projPad (aX m c) (aW1 m c) (aB1 m c) (aWg m c) a j) (Fin.ext (by show cc.val = 2048 * (grid0.coords t 1).val + cc.val; omega))))
        (bg_read m c t) r j).trans
        (outAt_apply m c t r j (grid0.coords t 0).val 0 hi0.symm hk (by omega)).symm
    rw [← e]; iexact H6
  · -- first strip, a middle chunk
    simp only [beforeV6_next m c t (by omega)]
    iintro ⟨⟨⟨%X9, H9, %hinv⟩, Hr⟩, Ho, ⟨%d0, H0⟩, ⟨%d1, H1⟩, ⟨%d2, H2⟩, ⟨%d3, H3⟩, ⟨%d4, H4⟩, ⟨%d5, H5⟩, ⟨%d6, H6⟩⟩
    have ht : (grid0.coords t 1).val = t.val := by omega
    have hScr := Cert.KernelIdeal.ValueStep.scr_inv_step (aX m c) (aW1 m c) (aB1 m c) (aWg m c) (grid0.coords t) h1 _ _ _ _ X9
      (x_at m c t d0) (w1_read m c t) (b1_read m c t) (wg_read m c t) (by rw [ht]; exact hinv)
    iapply (run_first_middle c (grid0.coords t) _ _ _ _ _ _ _ _ _ _ _ _ _ _ _ _ h1 h2 h3 h4 _ _ _ _ _ _ _ X9 Set.univ _)
    give_buffers
    iintro ⟨H0, H1, H2, H3, H4, H5, H6, H9⟩
    isplitl [H9 Hr]
    · isplitl [H9]
      · iexists _
        isplitl [H9]; · iexact H9
        ipureintro
        rw [hsucc, ← ht]; exact hScr
      iexact Hr
    return_inputs
    have e : k0_pay4 (F := Ideal) (win0_1.fill (grid0.coords t) d1 (iblk m c 1 t)) (outAt m c ⟨t.val - 1, by have := t.isLt; omega⟩) (View.ld (scrAfter (grid0.coords t) h1 (win0_0.fill (grid0.coords t) d0 (iblk m c 0 t)) (iblk m c 2 t) (iblk m c 3 t) (iblk m c 4 t) X9) (rect3 (grid0.coords t) h4)) = outAt m c t := by
      funext y
      obtain ⟨r, j, rfl⟩ : ∃ (r : Fin 2000) (j : Fin 16), y = ix2 r j := ⟨y 0, y 1, eq_ix2 y⟩
      exact (Cert.KernelIdeal.ValueStep.out_middle (aX m c) (aConn m c) (aW1 m c) (aB1 m c) (aWg m c) (aBg m c) (grid0.coords t) (by omega) (by omega) _ _ _ (conn_at m c t d1)
        (fun cc j => Cert.KernelIdeal.ValueStep.ld_rect3 (aX m c) (aW1 m c) (aB1 m c) (aWg m c) hScr (grid0.coords t) h4 (Nat.lt_succ_self _) cc j) r j
        (outAt_apply m c ⟨t.val - 1, by have := t.isLt; omega⟩ r j (grid0.coords t 0).val ((grid0.coords t 1).val - 1)
          (by show (t.val - 1) / 5 = _; omega) (by show (t.val - 1) % 5 = _; omega) (by omega))).trans
        (outAt_apply m c t r j (grid0.coords t 0).val (grid0.coords t 1).val hi0.symm hi1.symm (by omega)).symm
    rw [← e]; iexact H6
  · -- first strip, last chunk
    simp only [beforeV6_next m c t (by omega)]
    iintro ⟨⟨⟨%X9, H9, %hinv⟩, Hr⟩, Ho, ⟨%d0, H0⟩, ⟨%d1, H1⟩, ⟨%d2, H2⟩, ⟨%d3, H3⟩, ⟨%d4, H4⟩, ⟨%d5, H5⟩, ⟨%d6, H6⟩⟩
    have ht : (grid0.coords t 1).val = t.val := by omega
    have hScr := Cert.KernelIdeal.ValueStep.scr_inv_step (aX m c) (aW1 m c) (aB1 m c) (aWg m c) (grid0.coords t) h1 _ _ _ _ X9
      (x_at m c t d0) (w1_read m c t) (b1_read m c t) (wg_read m c t) (by rw [ht]; exact hinv)
    iapply (run_first_last c (grid0.coords t) _ _ _ _ _ _ _ _ _ _ _ _ _ _ _ _ h1 h2 h3 h4 _ _ _ _ _ _ _ X9 Set.univ _)
    give_buffers
    iintro ⟨H0, H1, H2, H3, H4, H5, H6, H9⟩
    isplitl [H9 Hr]
    · isplitl [H9]
      · iexists _
        isplitl [H9]; · iexact H9
        ipureintro
        rw [hsucc, ← ht]; exact hScr
      iexact Hr
    return_inputs
    have e : k0_pay2 (F := Ideal) (grid0.coords t) (win0_1.fill (grid0.coords t) d1 (iblk m c 1 t)) (outAt m c ⟨t.val - 1, by have := t.isLt; omega⟩) (View.ld (scrAfter (grid0.coords t) h1 (win0_0.fill (grid0.coords t) d0 (iblk m c 0 t)) (iblk m c 2 t) (iblk m c 3 t) (iblk m c 4 t) X9) (rect2 (grid0.coords t) h2)) = outAt m c t := by
      funext y
      obtain ⟨r, j, rfl⟩ : ∃ (r : Fin 2000) (j : Fin 16), y = ix2 r j := ⟨y 0, y 1, eq_ix2 y⟩
      exact (Cert.KernelIdeal.ValueStep.out_last (aX m c) (aConn m c) (aW1 m c) (aB1 m c) (aWg m c) (aBg m c) (grid0.coords t) (by omega) _ _ _ (conn_at m c t d1)
        (fun cc j => Cert.KernelIdeal.ValueStep.ld_rect2 (aX m c) (aW1 m c) (aB1 m c) (aWg m c) hScr (grid0.coords t) h2 (Nat.lt_succ_self _) cc j) r j
        (outAt_apply m c ⟨t.val - 1, by have := t.isLt; omega⟩ r j (grid0.coords t 0).val 3
          (by show (t.val - 1) / 5 = _; omega) (by show (t.val - 1) % 5 = _; omega) (by omega))).trans
        (outAt_apply m c t r j (grid0.coords t 0).val 4 hi0.symm hk (by omega)).symm
    rw [← e]; iexact H6
  · -- a later strip, first chunk
    simp only [beforeV6_start m c t hk]
    iintro ⟨⟨⟨%X9, H9, %hinv⟩, Hr⟩, Ho, ⟨%d0, H0⟩, ⟨%d1, H1⟩, ⟨%d2, H2⟩, ⟨%d3, H3⟩, ⟨%d4, H4⟩, ⟨%d5, H5⟩, ⟨%d6, H6⟩⟩
    iapply (run_later_start c (grid0.coords t) _ _ _ _ _ _ _ _ _ _ _ _ _ _ _ _ h1 h2 h3 h4 _ _ _ _ _ _ d6 X9 Set.univ _)
    give_buffers
    iintro ⟨H0, H1, H2, H3, H4, H5, H6, H9⟩
    isplitl [H9 Hr]
    · isplitl [H9]
      · iexists X9
        isplitl [H9]; · iexact H9
        ipureintro
        intro k _; exact hinv k (by have := k.isLt; rw [hcast]; omega)
      iexact Hr
    return_inputs
    have e : k0_pay3 (F := Ideal) (win0_1.fill (grid0.coords t) d1 (iblk m c 1 t)) (View.ld X9 rect0) (iblk m c 5 t) = outAt m c t := by
      funext y
      obtain ⟨r, j, rfl⟩ : ∃ (r : Fin 2000) (j : Fin 16), y = ix2 r j := ⟨y 0, y 1, eq_ix2 y⟩
      exact (Cert.KernelIdeal.ValueStep.out_start (aX m c) (aConn m c) (aW1 m c) (aB1 m c) (aWg m c) (aBg m c) (grid0.coords t) (by omega) _ _ _ (conn_at m c t d1)
        (fun cc j => (Cert.KernelIdeal.ValueStep.ld_rect0 (aX m c) (aW1 m c) (aB1 m c) (aWg m c) hinv (by rw [hcast]; omega) cc j).trans
          (congrArg (fun a => projPad (aX m c) (aW1 m c) (aB1 m c) (aWg m c) a j) (Fin.ext (by show cc.val = 2048 * (grid0.coords t 1).val + cc.val; omega))))
        (bg_read m c t) r j).trans
        (outAt_apply m c t r j (grid0.coords t 0).val 0 hi0.symm hk (by omega)).symm
    rw [← e]; iexact H6
  · -- a later strip, a middle chunk
    simp only [beforeV6_next m c t (by omega)]
    iintro ⟨⟨⟨%X9, H9, %hinv⟩, Hr⟩, Ho, ⟨%d0, H0⟩, ⟨%d1, H1⟩, ⟨%d2, H2⟩, ⟨%d3, H3⟩, ⟨%d4, H4⟩, ⟨%d5, H5⟩, ⟨%d6, H6⟩⟩
    iapply (run_later_middle c (grid0.coords t) _ _ _ _ _ _ _ _ _ _ _ _ _ _ _ _ h1 h2 h3 h4 _ _ _ _ _ _ _ X9 Set.univ _)
    give_buffers
    iintro ⟨H0, H1, H2, H3, H4, H5, H6, H9⟩
    isplitl [H9 Hr]
    · isplitl [H9]
      · iexists X9
        isplitl [H9]; · iexact H9
        ipureintro
        intro k _; exact hinv k (by have := k.isLt; rw [hcast]; omega)
      iexact Hr
    return_inputs
    have e : k0_pay4 (F := Ideal) (win0_1.fill (grid0.coords t) d1 (iblk m c 1 t)) (outAt m c ⟨t.val - 1, by have := t.isLt; omega⟩) (View.ld X9 (rect3 (grid0.coords t) h4)) = outAt m c t := by
      funext y
      obtain ⟨r, j, rfl⟩ : ∃ (r : Fin 2000) (j : Fin 16), y = ix2 r j := ⟨y 0, y 1, eq_ix2 y⟩
      exact (Cert.KernelIdeal.ValueStep.out_middle (aX m c) (aConn m c) (aW1 m c) (aB1 m c) (aWg m c) (aBg m c) (grid0.coords t) (by omega) (by omega) _ _ _ (conn_at m c t d1)
        (fun cc j => Cert.KernelIdeal.ValueStep.ld_rect3 (aX m c) (aW1 m c) (aB1 m c) (aWg m c) hinv (grid0.coords t) h4 (by rw [hcast]; omega) cc j) r j
        (outAt_apply m c ⟨t.val - 1, by have := t.isLt; omega⟩ r j (grid0.coords t 0).val ((grid0.coords t 1).val - 1)
          (by show (t.val - 1) / 5 = _; omega) (by show (t.val - 1) % 5 = _; omega) (by omega))).trans
        (outAt_apply m c t r j (grid0.coords t 0).val (grid0.coords t 1).val hi0.symm hi1.symm (by omega)).symm
    rw [← e]; iexact H6
  · -- a later strip, last chunk
    simp only [beforeV6_next m c t (by omega)]
    iintro ⟨⟨⟨%X9, H9, %hinv⟩, Hr⟩, Ho, ⟨%d0, H0⟩, ⟨%d1, H1⟩, ⟨%d2, H2⟩, ⟨%d3, H3⟩, ⟨%d4, H4⟩, ⟨%d5, H5⟩, ⟨%d6, H6⟩⟩
    iapply (run_later_last c (grid0.coords t) _ _ _ _ _ _ _ _ _ _ _ _ _ _ _ _ h1 h2 h3 h4 _ _ _ _ _ _ _ X9 Set.univ _)
    give_buffers
    iintro ⟨H0, H1, H2, H3, H4, H5, H6, H9⟩
    isplitl [H9 Hr]
    · isplitl [H9]
      · iexists X9
        isplitl [H9]; · iexact H9
        ipureintro
        intro k _; exact hinv k (by have := k.isLt; rw [hcast]; omega)
      iexact Hr
    return_inputs
    have e : k0_pay2 (F := Ideal) (grid0.coords t) (win0_1.fill (grid0.coords t) d1 (iblk m c 1 t)) (outAt m c ⟨t.val - 1, by have := t.isLt; omega⟩) (View.ld X9 (rect2 (grid0.coords t) h2)) = outAt m c t := by
      funext y
      obtain ⟨r, j, rfl⟩ : ∃ (r : Fin 2000) (j : Fin 16), y = ix2 r j := ⟨y 0, y 1, eq_ix2 y⟩
      exact (Cert.KernelIdeal.ValueStep.out_last (aX m c) (aConn m c) (aW1 m c) (aB1 m c) (aWg m c) (aBg m c) (grid0.coords t) (by omega) _ _ _ (conn_at m c t d1)
        (fun cc j => Cert.KernelIdeal.ValueStep.ld_rect2 (aX m c) (aW1 m c) (aB1 m c) (aWg m c) hinv (grid0.coords t) h2 (by rw [hcast]; omega) cc j) r j
        (outAt_apply m c ⟨t.val - 1, by have := t.isLt; omega⟩ r j (grid0.coords t 0).val 3
          (by show (t.val - 1) / 5 = _; omega) (by show (t.val - 1) % 5 = _; omega) (by omega))).trans
        (outAt_apply m c t r j (grid0.coords t 0).val 4 hi0.symm hk (by omega)).symm
    rw [← e]; iexact H6

/-- The library's body obligation. -/
theorem body_obligationV (c : Dev nD) :
    BodyObligationLoose (datsV m 0 c) (defs₀ (F := Ideal)) Variants.none () Set.univ := fun t => by
  rw [bigSep_W0, bigSep_W0]
  exact sound_bodyV m c t

/-! ## The run, and the result array in closed form -/

set_option backward.isDefEq.respectTransparency.types false in
/-- Every weakly fair execution of the idealized program ends, nothing faulting, with every window's array at what the
    library computes from the proof data — the result array its entry contents overwritten by the five strips'
    last partial sums — and every other unscoped buffer as the region found it. The scratch invariant is what is
    tracked from point to point. -/
theorem run_value : θ_run defs (onTc (τ := τ) (main (F := Ideal))) (s₀ m ρ) (Pipeline.FramePost cfgs (datsV m) 0 (V m)) :=
  Pipeline.θ_run_frame_track cfgs (datsV m) (0 : Fin 1) launch0 defs₀ Variants.none m ρ main
    (hbody := body_obligationV m) (hshare := fun c => (datsV m 0 c).share_full fun _ => rfl) (howed := fun _ _ => rfl) (V := V m)
    (hmain := hmain m Variants.none) (hA := A_eqV m) (hin := phi_in m) (hout := phi_out m)

/-- The result array after the run is the specification's function of the six argument arrays: strip i is written
    back after its last chunk, when the block holds the fifth partial sum, and the fifth partial sum of a row is that
    row of the result. -/
theorem final_out (c : Dev nD) :
    (datsV m 0 c).arrAt 6 cfg0.N = out (aX m c) (aConn m c) (aW1 m c) (aB1 m c) (aWg m c) (aBg m c) :=
  arr_out_eq (datsV m 0 c) (out (aX m c) (aConn m c) (aW1 m c) (aB1 m c) (aWg m c) (aBg m c)) (fun t ht r j => by
    rw [afterV6, outAt_apply m c t r j (t.val / 5) 4 rfl ht (strip_row_lt t r)]
    exact accum_four (aX m c) (aConn m c) (aW1 m c) (aB1 m c) (aWg m c) (aBg m c) _ j)

/-- The idealized program's run with its result named: the result array ends at the specification's function of the
    argument arrays, which end as they began. -/
theorem value_run : θ_run defs (onTc (τ := τ) (main (F := Ideal))) ⟨m, fun _ => 0, ρ⟩ (fun r => ∀ c : Dev nD,
      r.2.mem ((c.tc : Thread nD τ).loc main_v2) = out (aX m c) (aConn m c) (aW1 m c) (aB1 m c) (aWg m c) (aBg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans (final_out m c),
     ((h c).1 0).trans (((datsV m 0 c).arrAt_in 0 rfl _).trans ((A_eqV m c 0).trans (V_main_arg0 m c))),
     ((h c).1 1).trans (((datsV m 0 c).arrAt_in 1 rfl _).trans ((A_eqV m c 1).trans (V_main_arg1 m c))),
     ((h c).1 2).trans (((datsV m 0 c).arrAt_in 2 rfl _).trans ((A_eqV m c 2).trans (V_main_arg2 m c))),
     ((h c).2 main_arg3 (Pipeline.mem_restRefs_of main_arg3 (by decide) (by decide))).trans (V_main_arg3 m c),
     ((h c).1 4).trans (((datsV m 0 c).arrAt_in 4 rfl _).trans ((A_eqV m c 4).trans (V_main_arg4 m c))),
     ((h c).2 main_arg5 (Pipeline.mem_restRefs_of main_arg5 (by decide) (by decide))).trans (V_main_arg5 m c)⟩) (run_value m ρ)

end Cert.KernelIdeal.Body

end
-- ==== Proof.RefValue.lean ====
/-
  The plain program computes the specification.

  Its last stage is the sum of two arrays: the connectivity matrix times the projected features, and the output
  bias repeated on every row. Reading each stage at an index turns the three matrix products into the three sums
  Σ_c, Σ_h, Σ_d of the specification, the two repeated biases into b1 h and bg j, and the positive part into
  max (·, 0), the zero being the value of the all-zero word. What remains is to see that the index maps the stages
  compose (row of the left factor, column of the right factor, the contracted position in between) are the
  coordinates the specification names: each is checked coordinate by coordinate.
-/
import proofs.«122200_g63917703299193_cont_sun_m_350_28_alg».proof.Proof.Gen.ReferenceIdeal.Read
import proofs.«122200_g63917703299193_cont_sun_m_350_28_alg».proof.Proof.Spec

noncomputable section

open scoped BigOperators

namespace Cert.ReferenceIdeal.RefValue

open Cert.ReferenceIdeal Cert.ReferenceIdeal.Read Idealize.ShloMosaic Idealize.ShloMosaic.ValueIdx

/-! The index maps of the three products and of the two repeated biases, in coordinates. -/

/-- x is read at (row of the result, contracted position). -/
theorem lidx_v0 (i : S10000x64.Idx) (d : Fin 128) : lidx_main_v0 i d = ix2 (n0 := 10000) (n1 := 128) (i 0) d :=
  funext fun a => Fin.ext (by match a with | ⟨0, _⟩ => rfl | ⟨1, _⟩ => rfl)
/-- W1 is read at (contracted position, column of the result). -/
theorem ridx_v0 (i : S10000x64.Idx) (d : Fin 128) : ridx_main_v0 i d = ix2 (n0 := 128) (n1 := 64) d (i 1) :=
  funext fun a => Fin.ext (by match a with | ⟨0, _⟩ => rfl | ⟨1, _⟩ => rfl)
theorem lidx_v5 (i : S10000x16.Idx) (h : Fin 64) : lidx_main_v5 i h = ix2 (n0 := 10000) (n1 := 64) (i 0) h :=
  funext fun a => Fin.ext (by match a with | ⟨0, _⟩ => rfl | ⟨1, _⟩ => rfl)
theorem ridx_v5 (i : S10000x16.Idx) (h : Fin 64) : ridx_main_v5 i h = ix2 (n0 := 64) (n1 := 16) h (i 1) :=
  funext fun a => Fin.ext (by match a with | ⟨0, _⟩ => rfl | ⟨1, _⟩ => rfl)
theorem lidx_v6 (i : S10000x16.Idx) (c : Fin 10000) : lidx_main_v6 i c = ix2 (n0 := 10000) (n1 := 10000) (i 0) c :=
  funext fun a => Fin.ext (by match a with | ⟨0, _⟩ => rfl | ⟨1, _⟩ => rfl)
theorem ridx_v6 (i : S10000x16.Idx) (c : Fin 10000) : ridx_main_v6 i c = ix2 (n0 := 10000) (n1 := 16) c (i 1) :=
  funext fun a => Fin.ext (by match a with | ⟨0, _⟩ => rfl | ⟨1, _⟩ => rfl)
/-- The hidden bias, repeated along the rows, is read at the column. -/
theorem idx_v1_v2 (i : S10000x64.Idx) : idx_main_v1 (idx_main_v2 i) = ix1 (n := 64) (i 1) :=
  funext fun a => Fin.ext (by match a with | ⟨0, _⟩ => rfl)
/-- The output bias, repeated along the rows, is read at the column. -/
theorem idx_v7_v8 (i : S10000x16.Idx) : idx_main_v7 (idx_main_v8 i) = ix1 (n := 16) (i 1) :=
  funext fun a => Fin.ext (by match a with | ⟨0, _⟩ => rfl)

/-- The coordinates of an index built from coordinates. -/
theorem ix2_zero {n0 n1 : Nat} (a : Fin n0) (b : Fin n1) : ix2 a b 0 = a := rfl
theorem ix2_one {n0 n1 : Nat} (a : Fin n0) (b : Fin n1) : ix2 a b 1 = b := rfl

/-- The hidden layer of the plain program, at node c and unit h: the specification's hidden unit. -/
theorem hidden_eq (x : (⟨S10000x128, .f32⟩ : BufTy).Contents (Elt Ideal)) (W1 : (⟨S128x64, .f32⟩ : BufTy).Contents (Elt Ideal))
    (b1 : (⟨S64, .f32⟩ : BufTy).Contents (Elt Ideal)) (c : Fin 10000) (h : Fin 64) :
    val_main_v4 (F := Ideal) x W1 b1 (ix2 c h) = Cert.Spec.hidden x W1 b1 c h := by
  rw [val_main_v4_apply, val_main_v3_apply, val_main_v0_apply, val_main_v2_apply, val_main_v1_apply,
    val_main_call0_v0_apply, val_main_call0_cst_apply]
  simp only [lidx_v0, ridx_v0, idx_v1_v2, ix2_zero, ix2_one, Ideal.addf_def, Ideal.maximumf_def, Ideal.ofBits_def,
    Ideal.ofBits_zero_f32, Cert.Spec.hidden]

/-- The projected features of the plain program, at node c and channel j: the specification's projection. -/
theorem proj_eq (x : (⟨S10000x128, .f32⟩ : BufTy).Contents (Elt Ideal)) (W1 : (⟨S128x64, .f32⟩ : BufTy).Contents (Elt Ideal))
    (b1 : (⟨S64, .f32⟩ : BufTy).Contents (Elt Ideal)) (Wg : (⟨S64x16, .f32⟩ : BufTy).Contents (Elt Ideal))
    (c : Fin 10000) (j : Fin 16) :
    val_main_v5 (F := Ideal) x W1 b1 Wg (ix2 c j) = Cert.Spec.proj x W1 b1 Wg c j := by
  rw [val_main_v5_apply]
  simp only [lidx_v5, ridx_v5, ix2_zero, ix2_one, hidden_eq, Cert.Spec.proj]

/-- The last stage of the plain program, as a function of its six arguments, is the specification. -/
theorem ref_eq_out (x : (⟨S10000x128, .f32⟩ : BufTy).Contents (Elt Ideal)) (conn : (⟨S10000x10000, .f32⟩ : BufTy).Contents (Elt Ideal))
    (W1 : (⟨S128x64, .f32⟩ : BufTy).Contents (Elt Ideal)) (b1 : (⟨S64, .f32⟩ : BufTy).Contents (Elt Ideal))
    (Wg : (⟨S64x16, .f32⟩ : BufTy).Contents (Elt Ideal)) (bg : (⟨S16, .f32⟩ : BufTy).Contents (Elt Ideal)) :
    val_main_v9 (F := Ideal) x conn W1 b1 Wg bg = Cert.Spec.out x conn W1 b1 Wg bg := by
  funext i
  obtain ⟨r, j, rfl⟩ : ∃ (r : Fin 10000) (j : Fin 16), i = ix2 r j := ⟨i 0, i 1, eq_ix2 i⟩
  rw [val_main_v9_apply, val_main_v6_apply, val_main_v8_apply, val_main_v7_apply]
  simp only [lidx_v6, ridx_v6, idx_v7_v8, ix2_zero, ix2_one, proj_eq, Ideal.addf_def, Cert.Spec.out]

end Cert.ReferenceIdeal.RefValue

end
-- ==== Proof.lean ====
/-
  The tiled program and the plain reference compute the same function on the extended reals.

  For x [10000, 128], conn [10000, 10000], W1 [128, 64], b1 [64], Wg [64, 16], bg [16] both produce, at (r, j),
      (Σ_{c < 10000} conn (r, c) · proj (c, j)) + bg j,    proj (c, j) = Σ_h max (Σ_d x (c, d) · W1 (d, h) + b1 h, 0) · Wg (h, j).
  The reference computes it as three products and two sums over whole arrays. The tiled program walks a 5 × 5
  grid (row strips of 2000, column chunks of 2048; 5 · 2048 = 10240 reaches 240 past the arrays): in the first
  strip it fills a scratch with the projection, chunk by chunk, zero on the 240 rows past the last node; in every
  strip it accumulates the strip's rows chunk by chunk, the bias entering with the first chunk and the columns past
  the array masked to zero in the last. The two results differ by the grouping of one finite sum, by where the bias
  is added, and by 240 terms that are 0 · 0: commutativity and associativity of + on the extended reals and
  0 · 0 = 0 join them, and nothing there needs the entries to be finite — the precondition is not opened.

  The frames: for the two kernel programs, the body is safe at every grid point whatever the buffers hold, no input
  window is written back, and b1 and bg are staged through copies; for the reference, its run with the result dropped.
  The idealization rewrote no operation, so there is nothing to preserve.
-/
import proofs.«122200_g63917703299193_cont_sun_m_350_28_alg».proof.Defs
import proofs.«122200_g63917703299193_cont_sun_m_350_28_alg».proof.Proof.Gen.Kernel
import proofs.«122200_g63917703299193_cont_sun_m_350_28_alg».proof.Proof.Gen.KernelIdeal
import proofs.«122200_g63917703299193_cont_sun_m_350_28_alg».proof.Proof.Gen.ReferenceIdeal
import proofs.«122200_g63917703299193_cont_sun_m_350_28_alg».proof.Proof.Gen.ReferenceIdeal.Run
import proofs.«122200_g63917703299193_cont_sun_m_350_28_alg».proof.Proof.Gen.ReferenceIdeal.Read
import proofs.«122200_g63917703299193_cont_sun_m_350_28_alg».proof.Proof.Gen.Pre_finite_inputs
import proofs.«122200_g63917703299193_cont_sun_m_350_28_alg».proof.Proof.WordFramePlain
import proofs.«122200_g63917703299193_cont_sun_m_350_28_alg».proof.Proof.FramePlain
import proofs.«122200_g63917703299193_cont_sun_m_350_28_alg».proof.Proof.ValueRun
import proofs.«122200_g63917703299193_cont_sun_m_350_28_alg».proof.Proof.RefValue
import Idealize.ShloMosaic.Adequacy
import Idealize.ShloMosaic.Init

noncomputable section

namespace Cert.Proof

open Idealize.ShloMosaic Idealize.ShloMosaic.TcCoe Idealize.SL.Sem

/-- The program as printed runs to the end without a fault and leaves its six arguments as they were. -/
theorem frame_kernel : Cert.frame_Kernel := fun m ρ _ => Cert.Kernel.Body.frame m ρ

/-- So does the idealized program. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's function of the arguments: the tiled one by its tracked
    run, the reference by reading its run one operation at a time; the arguments agree. -/
theorem algebraic : Cert.algebraic_KernelIdeal_ReferenceIdeal := by
  intro m ρ m' ρ' _ hagree
  refine ⟨fun c => Cert.Spec.out (Cert.KernelIdeal.Body.aX m c) (Cert.KernelIdeal.Body.aConn m c) (Cert.KernelIdeal.Body.aW1 m c)
    (Cert.KernelIdeal.Body.aB1 m c) (Cert.KernelIdeal.Body.aWg m c) (Cert.KernelIdeal.Body.aBg m c),
    Cert.KernelIdeal.Body.value_run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v9 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
  rw [Cert.ReferenceIdeal.RefValue.ref_eq_out, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
